-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8 : Shape := ⟨1, ![8]⟩
abbrev S8x64x512 : Shape := ⟨3, ![8, 64, 512]⟩
abbrev S1024x512 : Shape := ⟨2, ![1024, 512]⟩
abbrev S1024 : Shape := ⟨1, ![1024]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x256x512 .f32) (main_arg1 : IVec S8 32) (main_arg2 : FVec F S8x64x512 .f32) (main_arg3 : IVec S8 32) (main_arg4 : FVec F S1024x512 .f32) (main_arg5 : FVec F S1024 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x64x512 .f32 := Host.absf main_arg2
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S1024x512 .f32 := Host.absf main_arg4
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x256x512 : Shape := ⟨3, ![8, 256, 512]⟩
abbrev S8 : Shape := ⟨1, ![8]⟩
abbrev S8x64x512 : Shape := ⟨3, ![8, 64, 512]⟩
abbrev S1024x512 : Shape := ⟨2, ![1024, 512]⟩
abbrev S1024 : Shape := ⟨1, ![1024]⟩
abbrev S512x1024 : Shape := ⟨2, ![512, 1024]⟩
abbrev S8x256x64x1024 : Shape := ⟨4, ![8, 256, 64, 1024]⟩
abbrev S1x128x512 : Shape := ⟨3, ![1, 128, 512]⟩
abbrev S1x64x512 : Shape := ⟨3, ![1, 64, 512]⟩
abbrev S512x256 : Shape := ⟨2, ![512, 256]⟩
abbrev S256 : Shape := ⟨1, ![256]⟩
abbrev S1x128x64x256 : Shape := ⟨4, ![1, 128, 64, 256]⟩
abbrev S128x64x512 : Shape := ⟨3, ![128, 64, 512]⟩
abbrev S64x512 : Shape := ⟨2, ![64, 512]⟩
abbrev S128x512 : Shape := ⟨2, ![128, 512]⟩
abbrev S16x512 : Shape := ⟨2, ![16, 512]⟩
abbrev S16x1x512 : Shape := ⟨3, ![16, 1, 512]⟩
abbrev S16x64x512 : Shape := ⟨3, ![16, 64, 512]⟩
abbrev S8192x512 : Shape := ⟨2, ![8192, 512]⟩
abbrev S8192x256 : Shape := ⟨2, ![8192, 256]⟩
abbrev S1x256 : Shape := ⟨2, ![1, 256]⟩
abbrev S128x64x256 : Shape := ⟨3, ![128, 64, 256]⟩

abbrev nBuf : Space → Nat
  | .hbm => 9
  | .vmem => 11
  | .smem => 0
  | _ => 0

abbrev bufTy : (tb : Table) → Fin (tcTables nBuf tb) → BufTy
  | .hbm, ⟨0, _⟩ => ⟨S8x256x512, .f32⟩
  | .hbm, ⟨1, _⟩ => ⟨S8, .i32⟩
  | .hbm, ⟨2, _⟩ => ⟨S8x64x512, .f32⟩
  | .hbm, ⟨3, _⟩ => ⟨S8, .i32⟩
  | .hbm, ⟨4, _⟩ => ⟨S1024x512, .f32⟩
  | .hbm, ⟨5, _⟩ => ⟨S1024, .f32⟩
  | .hbm, ⟨6, _⟩ => ⟨S512x1024, .f32⟩
  | .hbm, ⟨7, _⟩ => ⟨S512x1024, .bf16⟩
  | .hbm, ⟨8, _⟩ => ⟨S8x256x64x1024, .f32⟩
  | .local _ .vmem, ⟨0, _⟩ => ⟨S1x128x512, .f32⟩
  | .local _ .vmem, ⟨1, _⟩ => ⟨S1x128x512, .f32⟩
  | .local _ .vmem, ⟨2, _⟩ => ⟨S1x64x512, .f32⟩
  | .local _ .vmem, ⟨3, _⟩ => ⟨S1x64x512, .f32⟩
  | .local _ .vmem, ⟨4, _⟩ => ⟨S512x256, .bf16⟩
  | .local _ .vmem, ⟨5, _⟩ => ⟨S512x256, .bf16⟩
  | .local _ .vmem, ⟨6, _⟩ => ⟨S256, .f32⟩
  | .local _ .vmem, ⟨7, _⟩ => ⟨S256, .f32⟩
  | .local _ .vmem, ⟨8, _⟩ => ⟨S1x128x64x256, .f32⟩
  | .local _ .vmem, ⟨9, _⟩ => ⟨S1x128x64x256, .f32⟩
  | .local _ .vmem, ⟨10, _⟩ => ⟨S128x64x512, .bf16⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

@[reducible] def k0_t1_loop : Scf.Loop 32 :=
  let c0_i32_2 : BitVec 32 := 0#32
  let c8_i32 : BitVec 32 := 8#32
  let v2 : BitVec 32 := Scalar.addi c0_i32_2 c8_i32
  let c1_i32 : BitVec 32 := 1#32
  ⟨c0_i32_2, v2, c1_i32⟩
def k0_mult1 (k0_t1 : Fin k0_t1_loop.trips) : BitVec 32 :=
  let c0_i32_2 : BitVec 32 := 0#32
  let c1_i32 : BitVec 32 := 1#32
  let arg9 : BitVec 32 := Scf.iv c0_i32_2 c1_i32 k0_t1
  let c16_i32 : BitVec 32 := 16#32
  let v16 : BitVec 32 := Scalar.muli arg9 c16_i32
  v16
def k0_off1 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let c16_i32 : BitVec 32 := 16#32
  let v16 : BitVec 32 := Scalar.muli arg9 c16_i32
  let v17 : BitVec 32 := v16
  let v20 : Index := Scalar.indexCast v17
  let c0_16 : Index := 0#32
  ![v20.toNat, 0]
def k0_off2 (k0_t1 : Fin k0_t1_loop.trips) : Fin 3 → Nat :=
  let c0_i32_2 : BitVec 32 := 0#32
  let c1_i32 : BitVec 32 := 1#32
  let arg9 : BitVec 32 := Scf.iv c0_i32_2 c1_i32 k0_t1
  let c16_i32 : BitVec 32 := 16#32
  let v16 : BitVec 32 := Scalar.muli arg9 c16_i32
  let v17 : BitVec 32 := v16
  let v30 : Index := Scalar.indexCast v17
  let c0_18 : Index := 0#32
  let c0_19 : Index := 0#32
  ![v30.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x128x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  transposes_S1024x512_S512x1024_1_0 : S1024x512.Transposes [1, 0] S512x1024
  bitsLt_bf16_f32 : FTy.bits .bf16 < FTy.bits .f32
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S1x128x512_S1x128x512_0_0_0 : ∀ a, (![0, 0, 0] : Fin 3 → Nat) a + S1x128x512.size a ≤ S1x128x512.size a
  squeezes_S1x128x512_S128x512 : S1x128x512.Squeezes S128x512
  h_S16x512 : 0 < S16x512.numel
  shapeCasts_S16x512_S16x1x512 : S16x512.ShapeCasts S16x1x512
  shapeCasts_S64x512_S1x64x512 : S64x512.ShapeCasts S1x64x512
  broadcasts_S16x1x512_S16x64x512 : S16x1x512.Broadcasts S16x64x512
  broadcasts_S1x64x512_S16x64x512 : S1x64x512.Broadcasts S16x64x512
  h_S16x64x512 : 0 < S16x64x512.numel
  shapeCasts_S16x64x512_S16x64x512 : S16x64x512.ShapeCasts S16x64x512
  inb_S128x64x512_S128x64x512_0_0_0 : ∀ a, (![0, 0, 0] : Fin 3 → Nat) a + S128x64x512.size a ≤ S128x64x512.size a
  h_S128x64x512 : 0 < S128x64x512.numel
  shapeCasts_S128x64x512_S8192x512 : S128x64x512.ShapeCasts S8192x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S8192x256 : S1x256.Broadcasts S8192x256
  shapeCasts_S8192x256_S128x64x256 : S8192x256.ShapeCasts S128x64x256
  inb_S1x128x64x256_S1x128x64x256_0_0_0_0 : ∀ a, (![0, 0, 0, 0] : Fin 4 → Nat) a + S1x128x64x256.size a ≤ S1x128x64x256.size a
  h_S1x128x64x256 : 0 < S1x128x64x256.numel
  shapeCasts_S1x128x64x256_S128x64x256 : S1x128x64x256.ShapeCasts S128x64x256
  shapeCasts_S128x64x256_S1x128x64x256 : S128x64x256.ShapeCasts S1x128x64x256
  dot_S8192x512_S512x256_S8192x256_1_0_0_1_n_n_wf : DotDims.WF S8192x512 S512x256 S8192x256 [1] [0] [0] [1] [] []
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S16x512.size a ≤ S128x512.size a
  k0_off2_inb : ∀ k0_t1 : Fin k0_t1_loop.trips, ∀ a, (k0_off2 k0_t1) a + S16x64x512.size a ≤ S128x64x512.size a
  k0_off2_packedbf16 : ∀ k0_t1 : Fin k0_t1_loop.trips, (Rect.unit (s := S128x64x512) (k0_off2 k0_t1) S16x64x512.size (k0_off2_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S8x256x512.size a
  hwx0_0 : ∀ i : grid0.Coords, EltTy.bits .f32 = 32 ∨ (Rect.block (s := S8x256x512) S1x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .f32 = 32 ∨ (Rect.block (s := S8x64x512) S1x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x1024.size a
  hwx0_2 : ∀ i : grid0.Coords, EltTy.bits .bf16 = 32 ∨ (Rect.block (s := S512x1024) S512x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S1024.size a
  hwx0_3 : ∀ i : grid0.Coords, EltTy.bits .f32 = 32 ∨ (Rect.block (s := S1024) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x64x256.size a ≤ S8x256x64x1024.size a
  hwx0_4 : ∀ i : grid0.Coords, EltTy.bits .f32 = 32 ∨ (Rect.block (s := S8x256x64x1024) S1x128x64x256.size (cc0_transform_4 i) (hinb0_4 i)).WholeWords (EltTy.packing .f32)

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf

abbrev win0_0 : Pipeline.Window sig grid0 :=
  Pipeline.Window.ofSpec (Memref.whole main_arg0) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128x64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256x512 : Shape := ⟨3, ![8, 256, 512]⟩
abbrev S8 : Shape := ⟨1, ![8]⟩
abbrev S8x64x512 : Shape := ⟨3, ![8, 64, 512]⟩
abbrev S1024x512 : Shape := ⟨2, ![1024, 512]⟩
abbrev S1024 : Shape := ⟨1, ![1024]⟩
abbrev S8x256x1x512 : Shape := ⟨4, ![8, 256, 1, 512]⟩
abbrev S8x1x64x512 : Shape := ⟨4, ![8, 1, 64, 512]⟩
abbrev S8x256x64x512 : Shape := ⟨4, ![8, 256, 64, 512]⟩
abbrev S_ : Shape := ⟨0, ![]⟩
abbrev S8x256x64x1024 : Shape := ⟨4, ![8, 256, 64, 1024]⟩
abbrev S1x1x1x1024 : Shape := ⟨4, ![1, 1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8, .i32⟩
  | .hbm, ⟨2, _⟩ => ⟨S8x64x512, .f32⟩
  | .hbm, ⟨3, _⟩ => ⟨S8, .i32⟩
  | .hbm, ⟨4, _⟩ => ⟨S1024x512, .f32⟩
  | .hbm, ⟨5, _⟩ => ⟨S1024, .f32⟩
  | .hbm, ⟨6, _⟩ => ⟨S8x256x1x512, .f32⟩
  | .hbm, ⟨7, _⟩ => ⟨S8x1x64x512, .f32⟩
  | .hbm, ⟨8, _⟩ => ⟨S8x256x64x512, .f32⟩
  | .hbm, ⟨9, _⟩ => ⟨S8x256x64x512, .f32⟩
  | .hbm, ⟨10, _⟩ => ⟨S8x256x64x512, .f32⟩
  | .hbm, ⟨11, _⟩ => ⟨S_, .f32⟩
  | .hbm, ⟨12, _⟩ => ⟨S8x256x64x512, .f32⟩
  | .hbm, ⟨13, _⟩ => ⟨S8x256x64x512, .f32⟩
  | .hbm, ⟨14, _⟩ => ⟨S8x256x64x1024, .f32⟩
  | .hbm, ⟨15, _⟩ => ⟨S1x1x1x1024, .f32⟩
  | .hbm, ⟨16, _⟩ => ⟨S8x256x64x1024, .f32⟩
  | .hbm, ⟨17, _⟩ => ⟨S8x256x64x1024, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  bcast_S8x256x512_S8x256x1x512_0_1_3 : S8x256x512.BroadcastsInDim S8x256x1x512 (![0, 1, 3] : Fin 3 → Fin S8x256x1x512.rank)
  bcast_S8x64x512_S8x1x64x512_0_2_3 : S8x64x512.BroadcastsInDim S8x1x64x512 (![0, 2, 3] : Fin 3 → Fin S8x1x64x512.rank)
  bcast_S8x256x1x512_S8x256x64x512_0_1_2_3 : S8x256x1x512.BroadcastsInDim S8x256x64x512 (![0, 1, 2, 3] : Fin 4 → Fin S8x256x64x512.rank)
  bcast_S8x1x64x512_S8x256x64x512_0_1_2_3 : S8x1x64x512.BroadcastsInDim S8x256x64x512 (![0, 1, 2, 3] : Fin 4 → Fin S8x256x64x512.rank)
  bcast_S_S8x256x64x512 : S_.BroadcastsInDim S8x256x64x512 (![] : Fin 0 → Fin S8x256x64x512.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  dot_S8x256x64x512_S1024x512_S8x256x64x1024_3_1_012_0_n_n_wf : DotDims.WF S8x256x64x512 S1024x512 S8x256x64x1024 [3] [1] [0, 1, 2] [0] [] []

variable [Facts₀]

def dot_S8x256x64x512_S1024x512_S8x256x64x1024_3_1_012_0_n_n : DotDims S8x256x64x512 S1024x512 S8x256x64x1024 where
  lhsContracting := [3]
  rhsContracting := [1]
  lhsNonContracting := [0, 1, 2]
  rhsNonContracting := [0]
  lhsBatch := []
  rhsBatch := []
  wf := dot_S8x256x64x512_S1024x512_S8x256x64x1024_3_1_012_0_n_n_wf

class Facts : Prop extends Facts₀ where

variable [Facts]
-- ==== Proof.BitsRun.lean ====
/-
  The kernel body run once, on any whole staging memrefs.

  The body reads the target block (64 rows of 512), then in eight trips of a counted loop reads sixteen source rows,
  adds every target row to every one of them, clamps at zero and stores the sixteen resulting 64 × 512 slabs into
  the scratch at rows 16k … 16k + 15; after the loop it reads the scratch back whole as an 8192 × 512 matrix,
  multiplies it by the 512 × 256 weight block, adds the bias block to every row and stores the 128 × 64 × 256
  result into the output block. The loop reads the source block through a matrix view of its staging memref (the
  leading unit axis dropped); that view covers exactly the memref's elements, so holding the memref whole is holding
  the view, which is what the loop's invariant is stated over.
-/
import proofs.«110004_j20873541058896_2_alg».proof.Proof.Gen.Kernel.Launch
import proofs.«110004_j20873541058896_2_alg».proof.Proof.Gen.Kernel.Skeleton
import proofs.«110004_j20873541058896_2_alg».proof.Proof.Gen.Kernel.Loops
import proofs.«110004_j20873541058896_2_alg».proof.Proof.Gen.Kernel.Points
import proofs.«110004_j20873541058896_2_alg».proof.Proof.Gen.Kernel.Frame
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The all-zero offsets of a rank-3 rectangle, however spelt. -/
theorem off3_zero : (![0, 0, 0] : Fin 3 → Nat) = fun _ => 0 := by
  funext a; match a with | ⟨0, _⟩ => rfl | ⟨1, _⟩ => rfl | ⟨2, _⟩ => rfl

/-- The source block's staging memref seen as a 128 × 512 matrix (its leading unit axis dropped). -/
abbrev srcMat (arg3 : Memref sig .tc .vmem S1x128x512 .f32) : Memref sig .tc .vmem S128x512 .f32 :=
  (arg3.slice (Rect.unit (s := S1x128x512) ![0, 0, 0] S1x128x512.size inb_S1x128x512_S1x128x512_0_0_0) (fun _ => rfl)).squeeze S128x512 squeezes_S1x128x512_S128x512

/-- A view restricted to the rectangle of its whole shape at zero offsets has the view's own elements. -/
theorem slice_whole_set {κ : Kind} {sp : Space} {s : Shape} {e : EltTy} (v : View sig κ sp s e) (off : Fin s.rank → Nat) (h : off = fun _ => 0)
    (inb : ∀ a, off a + s.size a ≤ s.size a) : (v.slice (Rect.unit off s.size inb)).set = v.set := by
  rw [View.set_slice]
  unfold View.set
  congr 1
  ext y
  simp only [Finset.mem_univ, iff_true]
  exact View.mem_set_unit_zero h inb y

/-- The matrix view covers exactly the elements of the whole staging memref. -/
theorem srcMat_set (arg3 : Memref sig .tc .vmem S1x128x512 .f32) : (srcMat arg3).view.set = arg3.view.set := by
  rw [Memref.set_view_squeeze]
  exact slice_whole_set arg3.view _ off3_zero _

/-- So holding the staging memref whole is holding it through the matrix view, at the same contents. -/
theorem pointsTo_srcMat (c : Dev nD) (arg3 : Memref sig .tc .vmem S1x128x512 .f32) (f : BufTy.Contents (Elt F) arg3.view.ty) :
    ((arg3.view.loc (c : Thread nD τ) ↦[arg3.view.set]{fullShare} f : sProp 𝕄)
      = ((srcMat arg3).view.loc (c : Thread nD τ) ↦[(srcMat arg3).view.set]{fullShare} f)) :=
  congrArg (fun S => (arg3.view.loc (c : Thread nD τ) ↦[S]{fullShare} f : sProp 𝕄)) (srcMat_set arg3).symm

set_option maxHeartbeats 1000000 in
/-- The whole body on any whole staging memrefs and scratch: the four inputs at their contents, the output's
    buffer at anything, the scratch at given contents. The run goes through the chunk loop by its invariant (sixteen
    source rows per trip, each trip storing its sixteen rows of the activation into the scratch), reads the scratch
    back whole, and stores the output block once; the pieces the output ends with are the run's own find. -/
noncomputable def kernelRun (c : Dev nD) (i : grid0.Coords) (arg3 : Memref sig .tc .vmem S1x128x512 .f32) (harg3 : arg3.IsWhole) (arg4 : Memref sig .tc .vmem S1x64x512 .f32) (harg4 : arg4.IsWhole) (arg5 : Memref sig .tc .vmem S512x256 .bf16) (harg5 : arg5.IsWhole) (arg6 : Memref sig .tc .vmem S256 .f32) (harg6 : arg6.IsWhole) (arg7 : Memref sig .tc .vmem S1x128x64x256 .f32) (harg7 : arg7.IsWhole) (arg8 : Memref sig .tc .vmem S128x64x512 .bf16) (harg8 : arg8.IsWhole)
    (x0 : Vec F S1x128x512 .f32) (x1 : Vec F S1x64x512 .f32) (x2 : Vec F S512x256 .bf16) (x3 : Vec F S256 .f32) (s0 : Vec F S128x64x512 .bf16) :
    { L : List (View.Piece (Elt F) S1x128x64x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare s0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L) ∗ (∃ d, owns (c : Thread nD τ) arg8 fullShare d)) -∗ K ⟨⟩))
          ⊢ wp frame (wpE (defs₀ (F := F)) Variants.none c none) E (cc0__dense_mlp_kernel i arg3 harg3 arg4 harg4 arg5 harg5 arg6 harg6 arg7 harg7 arg8 harg8) K } := by
  refine ⟨?_, fun E K => ?run⟩
  case run =>
    simp only [cc0__dense_mlp_kernel_eq_skeleton]; unfold cc0__dense_mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3
    obtain rfl := harg8.eq_unread hfs0
    ihave H0 := (Entails.of_eq (pointsTo_srcMat (F := F) c arg3 _)) $$ H0
    sl_exec
    sl_step
    ihave H0 := (Entails.of_eq (pointsTo_srcMat (F := F) c arg3 _).symm) $$ H0
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _, _; isplitr; swap; · iexact HS0
    ipureintro; rfl

end Cert.Kernel.Body

end
-- ==== Proof.BitsFrame.lean ====
/-
  The frame of the program, from the body's run.

  After the loop the scratch holds what the eight trips stored, sixteen rows each: the trips' rectangles tile the
  128 rows, so reading the scratch back whole gives the stored pieces' own contents, whatever the scratch held when
  the body started. The output block then receives one store of its whole shape. So what the body leaves in the
  output's staging buffer is one function of the four input blocks at the point; the inputs' buffers are left as
  they were; the scratch, which every point overwrites before reading, stays inside the pipeline's invariant at
  some contents. With that proof data the pipeline's launch theorem gives the run of the whole program, and the
  argument arrays end as they began.
-/
import proofs.«110004_j20873541058896_2_alg».proof.Proof.BitsRun
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The all-zero offsets of a rank-4, a rank-2 and a rank-1 rectangle, however spelt. -/
theorem off4_zero : (![0, 0, 0, 0] : Fin 4 → Nat) = fun _ => 0 := by
  funext a; match a with | ⟨0, _⟩ => rfl | ⟨1, _⟩ => rfl | ⟨2, _⟩ => rfl | ⟨3, _⟩ => rfl
theorem off2_zero : (![0, 0] : Fin 2 → Nat) = fun _ => 0 := by
  funext a; match a with | ⟨0, _⟩ => rfl | ⟨1, _⟩ => rfl
theorem off1_zero : (![0] : Fin 1 → Nat) = fun _ => 0 := by
  funext a; match a with | ⟨0, _⟩ => rfl

/-! ## What the scratch holds after the loop -/

/-- The eight trips' stores tile the scratch: trip `k` covers rows 16k … 16k + 15, all 64 × 512 of each. -/
theorem cover_scratch (c : Dev nD) (i : grid0.Coords) (arg3 : Memref sig .tc .vmem S1x128x512 .f32) (harg3 : arg3.IsWhole) (arg4 : Memref sig .tc .vmem S1x64x512 .f32) (harg4 : arg4.IsWhole) (arg5 : Memref sig .tc .vmem S512x256 .bf16) (harg5 : arg5.IsWhole) (arg6 : Memref sig .tc .vmem S256 .f32) (harg6 : arg6.IsWhole) (arg7 : Memref sig .tc .vmem S1x128x64x256 .f32) (harg7 : arg7.IsWhole) (arg8 : Memref sig .tc .vmem S128x64x512 .bf16) (harg8 : arg8.IsWhole) (v0 : Vec F S1x64x512 .f32) (X : BufTy.Contents (Elt F) (srcMat arg3).view.ty) :
    ∀ y : S128x64x512.Idx, ∃ p ∈ pb_k0_t1 (F := F) Variants.none c none i arg3 harg3 arg4 harg4 arg5 harg5 arg6 harg6 arg7 harg7 arg8 harg8 v0 (srcMat arg3) rfl X (Scf.trips k0_t1_loop.lb k0_t1_loop.ub k0_t1_loop.st), y ∈ p.1.set :=
  View.cover_of_tiledL _ S16x64x512.size (by sl_kernel_rfl)

/-- The scratch after the loop, as a function of the source and target blocks: the contents the trips' pieces leave. -/
def actBlk (c : Dev nD) (i : grid0.Coords) (arg3 : Memref sig .tc .vmem S1x128x512 .f32) (harg3 : arg3.IsWhole) (arg4 : Memref sig .tc .vmem S1x64x512 .f32) (harg4 : arg4.IsWhole) (arg5 : Memref sig .tc .vmem S512x256 .bf16) (harg5 : arg5.IsWhole) (arg6 : Memref sig .tc .vmem S256 .f32) (harg6 : arg6.IsWhole) (arg7 : Memref sig .tc .vmem S1x128x64x256 .f32) (harg7 : arg7.IsWhole) (arg8 : Memref sig .tc .vmem S128x64x512 .bf16) (harg8 : arg8.IsWhole) (x0 : Vec F S1x128x512 .f32) (x1 : Vec F S1x64x512 .f32) : Vec F S128x64x512 .bf16 :=
  View.canon (pb_k0_t1 (F := F) Variants.none c none i arg3 harg3 arg4 harg4 arg5 harg5 arg6 harg6 arg7 harg7 arg8 harg8
    (View.readAt (Elt F) arg4.view (Rect.unit (s := S1x64x512) ![0, 0, 0] S1x64x512.size inb_S1x64x512_S1x64x512_0_0_0).toLoadRect (harg4.unread x1))
    (srcMat arg3) rfl (harg3.unread x0) (Scf.trips k0_t1_loop.lb k0_t1_loop.ub k0_t1_loop.st))

/-- The whole-scratch load after the loop reads those contents, whatever the scratch held before. -/
theorem loaded_scratch (c : Dev nD) (i : grid0.Coords) (arg3 : Memref sig .tc .vmem S1x128x512 .f32) (harg3 : arg3.IsWhole) (arg4 : Memref sig .tc .vmem S1x64x512 .f32) (harg4 : arg4.IsWhole) (arg5 : Memref sig .tc .vmem S512x256 .bf16) (harg5 : arg5.IsWhole) (arg6 : Memref sig .tc .vmem S256 .f32) (harg6 : arg6.IsWhole) (arg7 : Memref sig .tc .vmem S1x128x64x256 .f32) (harg7 : arg7.IsWhole) (arg8 : Memref sig .tc .vmem S128x64x512 .bf16) (harg8 : arg8.IsWhole) (x0 : Vec F S1x128x512 .f32) (x1 : Vec F S1x64x512 .f32) (s0 : Vec F S128x64x512 .bf16) :
    kernelRun.sl.v3 c i arg3 harg3 arg4 harg4 arg5 harg5 arg6 harg6 arg7 harg7 arg8 harg8 x0 x1 s0 = actBlk c i arg3 harg3 arg4 harg4 arg5 harg5 arg6 harg6 arg7 harg7 arg8 harg8 x0 x1 := by
  unfold kernelRun.sl.v3 actBlk
  rw [View.readAt_eq_ld, View.read_writes_eq_canon _ _ _ (cover_scratch c i arg3 harg3 arg4 harg4 arg5 harg5 arg6 harg6 arg7 harg7 arg8 harg8 _ _), View.ld_unit_zero off3_zero]

/-! ## What the body leaves in the output block -/

/-- The output block after the body: the matrix product of the scratch (read as 8192 × 512) with the weight block,
    plus the bias block on every row, re-stacked as 128 × 64 × 256. -/
def outBlk (c : Dev nD) (i : grid0.Coords) (arg3 : Memref sig .tc .vmem S1x128x512 .f32) (harg3 : arg3.IsWhole) (arg4 : Memref sig .tc .vmem S1x64x512 .f32) (harg4 : arg4.IsWhole) (arg5 : Memref sig .tc .vmem S512x256 .bf16) (harg5 : arg5.IsWhole) (arg6 : Memref sig .tc .vmem S256 .f32) (harg6 : arg6.IsWhole) (arg7 : Memref sig .tc .vmem S1x128x64x256 .f32) (harg7 : arg7.IsWhole) (arg8 : Memref sig .tc .vmem S128x64x512 .bf16) (harg8 : arg8.IsWhole) (x0 : Vec F S1x128x512 .f32) (x1 : Vec F S1x64x512 .f32) (x2 : Vec F S512x256 .bf16) (x3 : Vec F S256 .f32) : Vec F S1x128x64x256 .f32 :=
  k0_pay2 (actBlk c i arg3 harg3 arg4 harg4 arg5 harg5 arg6 harg6 arg7 harg7 arg8 harg8 x0 x1) x2 x3

/-- The pieces the run found: one store of the whole output block. -/
theorem kernelRun_pieces (c : Dev nD) (i : grid0.Coords) (arg3 : Memref sig .tc .vmem S1x128x512 .f32) (harg3 : arg3.IsWhole) (arg4 : Memref sig .tc .vmem S1x64x512 .f32) (harg4 : arg4.IsWhole) (arg5 : Memref sig .tc .vmem S512x256 .bf16) (harg5 : arg5.IsWhole) (arg6 : Memref sig .tc .vmem S256 .f32) (harg6 : arg6.IsWhole) (arg7 : Memref sig .tc .vmem S1x128x64x256 .f32) (harg7 : arg7.IsWhole) (arg8 : Memref sig .tc .vmem S128x64x512 .bf16) (harg8 : arg8.IsWhole) (x0 : Vec F S1x128x512 .f32) (x1 : Vec F S1x64x512 .f32) (x2 : Vec F S512x256 .bf16) (x3 : Vec F S256 .f32) (s0 : Vec F S128x64x512 .bf16) :
    (kernelRun c i arg3 harg3 arg4 harg4 arg5 harg5 arg6 harg6 arg7 harg7 arg8 harg8 x0 x1 x2 x3 s0).1
      = [⟨Rect.unit (s := S1x128x64x256) ![0, 0, 0, 0] S1x128x64x256.size inb_S1x128x64x256_S1x128x64x256_0_0_0_0,
          k0_pay2 (kernelRun.sl.v3 c i arg3 harg3 arg4 harg4 arg5 harg5 arg6 harg6 arg7 harg7 arg8 harg8 x0 x1 s0)
            (View.readAt (Elt F) arg5.view (Rect.unit (s := S512x256) ![0, 0] S512x256.size inb_S512x256_S512x256_0_0).toLoadRect (harg5.unread x2))
            (View.readAt (Elt F) arg6.view (Rect.unit (s := S256) ![0] S256.size inb_S256_S256_0).toLoadRect (harg6.unread x3))⟩] := by
  unfold kernelRun; rfl

/-- Read back through any view of the block's shape, over any prior contents, the run's pieces are `outBlk`. -/
theorem read_out (c : Dev nD) (i : grid0.Coords) (arg3 : Memref sig .tc .vmem S1x128x512 .f32) (harg3 : arg3.IsWhole) (arg4 : Memref sig .tc .vmem S1x64x512 .f32) (harg4 : arg4.IsWhole) (arg5 : Memref sig .tc .vmem S512x256 .bf16) (harg5 : arg5.IsWhole) (arg6 : Memref sig .tc .vmem S256 .f32) (harg6 : arg6.IsWhole) (arg7 : Memref sig .tc .vmem S1x128x64x256 .f32) (harg7 : arg7.IsWhole) (arg8 : Memref sig .tc .vmem S128x64x512 .bf16) (harg8 : arg8.IsWhole) (x0 : Vec F S1x128x512 .f32) (x1 : Vec F S1x64x512 .f32) (x2 : Vec F S512x256 .bf16) (x3 : Vec F S256 .f32) (s0 : Vec F S128x64x512 .bf16)
    {κ : Kind} {sp : Space} (v : View sig κ sp S1x128x64x256 .f32) (f : v.ty.Contents (Elt F)) :
    v.read (Elt F) (v.writes (Elt F) f (kernelRun c i arg3 harg3 arg4 harg4 arg5 harg5 arg6 harg6 arg7 harg7 arg8 harg8 x0 x1 x2 x3 s0).1) = outBlk c i arg3 harg3 arg4 harg4 arg5 harg5 arg6 harg6 arg7 harg7 arg8 harg8 x0 x1 x2 x3 := by
  rw [kernelRun_pieces,
    View.read_writes_eq_canon _ _ _ (fun y => ⟨_, List.mem_singleton_self _, View.mem_set_unit_zero off4_zero inb_S1x128x64x256_S1x128x64x256_0_0_0_0 y⟩),
    View.canon_unit_zero off4_zero, loaded_scratch]
  unfold outBlk
  rw [View.readAt_eq_ld, View.readAt_eq_ld, harg5.read_unread, harg6.read_unread, View.ld_unit_zero off2_zero, View.ld_unit_zero off1_zero]

/-! ## The staging memrefs at a point -/

abbrev ms0 (t : Fin cfg0.N) : Memref sig .tc .vmem S1x128x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x64x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128x64x256 .f32 := win0_4.stage (cfg0.slots t 4)
abbrev hs4 (t : Fin cfg0.N) : (ms4 t).IsWhole := hstage0_4 ((cfg0.slots t 4).cast nbuf0_4)
/-- The scratch operand: a whole scoped buffer of the kernel's own. -/
abbrev scM : Memref sig .tc .vmem S128x64x512 .bf16 := Memref.whole cc0_scratch0

/-- The pipeline's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What the output's staging buffer holds after the body at point `t`. -/
def outAt (c : Dev nD) (t : Fin cfg0.N) : Vec F S1x128x64x256 .f32 :=
  outBlk c (grid0.coords t) (ms0 t) (hs0 t) (ms1 t) (hs1 t) (ms2 t) (hs2 t) (ms3 t) (hs3 t) (ms4 t) (hs4 t) scM (Memref.isWhole_whole _)
    (iblk m c 0 t) (iblk m c 1 t) (iblk m c 2 t) (iblk m c 3 t)

/-! ## The pipeline's proof data -/

/-- The arrays as the region finds them; after the body each input's buffer at its block and the output's at
    `outAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

/-- The body at any point: the inputs' memrefs hold their blocks, the scratch is taken out of the invariant at
    whatever it holds and handed back, the output's buffer ends at `outAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  rw [show (dats m 0 c).Φ t.castSucc = Pipeline.ΦA spec0 c from rfl, PhiA_eq]
  unfold outAt
  iintro ⟨⟨⟨%ds, HS⟩, Hg⟩, Ho, ⟨%d0, H0⟩, ⟨%d1, H1⟩, ⟨%d2, H2⟩, ⟨%d3, H3⟩, ⟨%d4, H4⟩⟩
  iapply ((kernelRun c (grid0.coords t) _ _ _ _ _ _ _ _ _ _ _ _ (iblk m c 0 t) (iblk m c 1 t) (iblk m c 2 t) (iblk m c 3 t) ds).2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact read_out c _ _ _ _ _ _ _ _ _ _ _ _ _ _ _ _ _ ds _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, every array of the pipeline ending at what the library
    computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.IdealRun.lean ====
/-
  The kernel body run once, on any whole staging memrefs.

  The body reads the target block (64 rows of 512), then in eight trips of a counted loop reads sixteen source rows,
  adds every target row to every one of them, clamps at zero and stores the sixteen resulting 64 × 512 slabs into
  the scratch at rows 16k … 16k + 15; after the loop it reads the scratch back whole as an 8192 × 512 matrix,
  multiplies it by the 512 × 256 weight block, adds the bias block to every row and stores the 128 × 64 × 256
  result into the output block. The loop reads the source block through a matrix view of its staging memref (the
  leading unit axis dropped); that view covers exactly the memref's elements, so holding the memref whole is holding
  the view, which is what the loop's invariant is stated over.
-/
import proofs.«110004_j20873541058896_2_alg».proof.Proof.Gen.KernelIdeal.Launch
import proofs.«110004_j20873541058896_2_alg».proof.Proof.Gen.KernelIdeal.Skeleton
import proofs.«110004_j20873541058896_2_alg».proof.Proof.Gen.KernelIdeal.Loops
import proofs.«110004_j20873541058896_2_alg».proof.Proof.Gen.KernelIdeal.Points
import proofs.«110004_j20873541058896_2_alg».proof.Proof.Gen.KernelIdeal.Frame
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The all-zero offsets of a rank-3 rectangle, however spelt. -/
theorem off3_zero : (![0, 0, 0] : Fin 3 → Nat) = fun _ => 0 := by
  funext a; match a with | ⟨0, _⟩ => rfl | ⟨1, _⟩ => rfl | ⟨2, _⟩ => rfl

/-- The source block's staging memref seen as a 128 × 512 matrix (its leading unit axis dropped). -/
abbrev srcMat (arg3 : Memref sig .tc .vmem S1x128x512 .f32) : Memref sig .tc .vmem S128x512 .f32 :=
  (arg3.slice (Rect.unit (s := S1x128x512) ![0, 0, 0] S1x128x512.size inb_S1x128x512_S1x128x512_0_0_0) (fun _ => rfl)).squeeze S128x512 squeezes_S1x128x512_S128x512

/-- A view restricted to the rectangle of its whole shape at zero offsets has the view's own elements. -/
theorem slice_whole_set {κ : Kind} {sp : Space} {s : Shape} {e : EltTy} (v : View sig κ sp s e) (off : Fin s.rank → Nat) (h : off = fun _ => 0)
    (inb : ∀ a, off a + s.size a ≤ s.size a) : (v.slice (Rect.unit off s.size inb)).set = v.set := by
  rw [View.set_slice]
  unfold View.set
  congr 1
  ext y
  simp only [Finset.mem_univ, iff_true]
  exact View.mem_set_unit_zero h inb y

/-- The matrix view covers exactly the elements of the whole staging memref. -/
theorem srcMat_set (arg3 : Memref sig .tc .vmem S1x128x512 .f32) : (srcMat arg3).view.set = arg3.view.set := by
  rw [Memref.set_view_squeeze]
  exact slice_whole_set arg3.view _ off3_zero _

/-- So holding the staging memref whole is holding it through the matrix view, at the same contents. -/
theorem pointsTo_srcMat (c : Dev nD) (arg3 : Memref sig .tc .vmem S1x128x512 .f32) (f : BufTy.Contents (Elt F) arg3.view.ty) :
    ((arg3.view.loc (c : Thread nD τ) ↦[arg3.view.set]{fullShare} f : sProp 𝕄)
      = ((srcMat arg3).view.loc (c : Thread nD τ) ↦[(srcMat arg3).view.set]{fullShare} f)) :=
  congrArg (fun S => (arg3.view.loc (c : Thread nD τ) ↦[S]{fullShare} f : sProp 𝕄)) (srcMat_set arg3).symm

set_option maxHeartbeats 1000000 in
/-- The whole body on any whole staging memrefs and scratch: the four inputs at their contents, the output's
    buffer at anything, the scratch at given contents. The run goes through the chunk loop by its invariant (sixteen
    source rows per trip, each trip storing its sixteen rows of the activation into the scratch), reads the scratch
    back whole, and stores the output block once; the pieces the output ends with are the run's own find. -/
noncomputable def kernelRun (c : Dev nD) (i : grid0.Coords) (arg3 : Memref sig .tc .vmem S1x128x512 .f32) (harg3 : arg3.IsWhole) (arg4 : Memref sig .tc .vmem S1x64x512 .f32) (harg4 : arg4.IsWhole) (arg5 : Memref sig .tc .vmem S512x256 .bf16) (harg5 : arg5.IsWhole) (arg6 : Memref sig .tc .vmem S256 .f32) (harg6 : arg6.IsWhole) (arg7 : Memref sig .tc .vmem S1x128x64x256 .f32) (harg7 : arg7.IsWhole) (arg8 : Memref sig .tc .vmem S128x64x512 .bf16) (harg8 : arg8.IsWhole)
    (x0 : Vec F S1x128x512 .f32) (x1 : Vec F S1x64x512 .f32) (x2 : Vec F S512x256 .bf16) (x3 : Vec F S256 .f32) (s0 : Vec F S128x64x512 .bf16) :
    { L : List (View.Piece (Elt F) S1x128x64x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare s0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L) ∗ (∃ d, owns (c : Thread nD τ) arg8 fullShare d)) -∗ K ⟨⟩))
          ⊢ wp frame (wpE (defs₀ (F := F)) Variants.none c none) E (cc0__dense_mlp_kernel i arg3 harg3 arg4 harg4 arg5 harg5 arg6 harg6 arg7 harg7 arg8 harg8) K } := by
  refine ⟨?_, fun E K => ?run⟩
  case run =>
    simp only [cc0__dense_mlp_kernel_eq_skeleton]; unfold cc0__dense_mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3
    obtain rfl := harg8.eq_unread hfs0
    ihave H0 := (Entails.of_eq (pointsTo_srcMat (F := F) c arg3 _)) $$ H0
    sl_exec
    sl_step
    ihave H0 := (Entails.of_eq (pointsTo_srcMat (F := F) c arg3 _).symm) $$ H0
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _, _; isplitr; swap; · iexact HS0
    ipureintro; rfl

end Cert.KernelIdeal.Body

end
-- ==== Proof.IdealFrame.lean ====
/-
  The frame of the program, from the body's run.

  After the loop the scratch holds what the eight trips stored, sixteen rows each: the trips' rectangles tile the
  128 rows, so reading the scratch back whole gives the stored pieces' own contents, whatever the scratch held when
  the body started. The output block then receives one store of its whole shape. So what the body leaves in the
  output's staging buffer is one function of the four input blocks at the point; the inputs' buffers are left as
  they were; the scratch, which every point overwrites before reading, stays inside the pipeline's invariant at
  some contents. With that proof data the pipeline's launch theorem gives the run of the whole program, and the
  argument arrays end as they began.
-/
import proofs.«110004_j20873541058896_2_alg».proof.Proof.IdealRun
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The all-zero offsets of a rank-4, a rank-2 and a rank-1 rectangle, however spelt. -/
theorem off4_zero : (![0, 0, 0, 0] : Fin 4 → Nat) = fun _ => 0 := by
  funext a; match a with | ⟨0, _⟩ => rfl | ⟨1, _⟩ => rfl | ⟨2, _⟩ => rfl | ⟨3, _⟩ => rfl
theorem off2_zero : (![0, 0] : Fin 2 → Nat) = fun _ => 0 := by
  funext a; match a with | ⟨0, _⟩ => rfl | ⟨1, _⟩ => rfl
theorem off1_zero : (![0] : Fin 1 → Nat) = fun _ => 0 := by
  funext a; match a with | ⟨0, _⟩ => rfl

/-! ## What the scratch holds after the loop -/

/-- The eight trips' stores tile the scratch: trip `k` covers rows 16k … 16k + 15, all 64 × 512 of each. -/
theorem cover_scratch (c : Dev nD) (i : grid0.Coords) (arg3 : Memref sig .tc .vmem S1x128x512 .f32) (harg3 : arg3.IsWhole) (arg4 : Memref sig .tc .vmem S1x64x512 .f32) (harg4 : arg4.IsWhole) (arg5 : Memref sig .tc .vmem S512x256 .bf16) (harg5 : arg5.IsWhole) (arg6 : Memref sig .tc .vmem S256 .f32) (harg6 : arg6.IsWhole) (arg7 : Memref sig .tc .vmem S1x128x64x256 .f32) (harg7 : arg7.IsWhole) (arg8 : Memref sig .tc .vmem S128x64x512 .bf16) (harg8 : arg8.IsWhole) (v0 : Vec F S1x64x512 .f32) (X : BufTy.Contents (Elt F) (srcMat arg3).view.ty) :
    ∀ y : S128x64x512.Idx, ∃ p ∈ pb_k0_t1 (F := F) Variants.none c none i arg3 harg3 arg4 harg4 arg5 harg5 arg6 harg6 arg7 harg7 arg8 harg8 v0 (srcMat arg3) rfl X (Scf.trips k0_t1_loop.lb k0_t1_loop.ub k0_t1_loop.st), y ∈ p.1.set :=
  View.cover_of_tiledL _ S16x64x512.size (by sl_kernel_rfl)

/-- The scratch after the loop, as a function of the source and target blocks: the contents the trips' pieces leave. -/
def actBlk (c : Dev nD) (i : grid0.Coords) (arg3 : Memref sig .tc .vmem S1x128x512 .f32) (harg3 : arg3.IsWhole) (arg4 : Memref sig .tc .vmem S1x64x512 .f32) (harg4 : arg4.IsWhole) (arg5 : Memref sig .tc .vmem S512x256 .bf16) (harg5 : arg5.IsWhole) (arg6 : Memref sig .tc .vmem S256 .f32) (harg6 : arg6.IsWhole) (arg7 : Memref sig .tc .vmem S1x128x64x256 .f32) (harg7 : arg7.IsWhole) (arg8 : Memref sig .tc .vmem S128x64x512 .bf16) (harg8 : arg8.IsWhole) (x0 : Vec F S1x128x512 .f32) (x1 : Vec F S1x64x512 .f32) : Vec F S128x64x512 .bf16 :=
  View.canon (pb_k0_t1 (F := F) Variants.none c none i arg3 harg3 arg4 harg4 arg5 harg5 arg6 harg6 arg7 harg7 arg8 harg8
    (View.readAt (Elt F) arg4.view (Rect.unit (s := S1x64x512) ![0, 0, 0] S1x64x512.size inb_S1x64x512_S1x64x512_0_0_0).toLoadRect (harg4.unread x1))
    (srcMat arg3) rfl (harg3.unread x0) (Scf.trips k0_t1_loop.lb k0_t1_loop.ub k0_t1_loop.st))

/-- The whole-scratch load after the loop reads those contents, whatever the scratch held before. -/
theorem loaded_scratch (c : Dev nD) (i : grid0.Coords) (arg3 : Memref sig .tc .vmem S1x128x512 .f32) (harg3 : arg3.IsWhole) (arg4 : Memref sig .tc .vmem S1x64x512 .f32) (harg4 : arg4.IsWhole) (arg5 : Memref sig .tc .vmem S512x256 .bf16) (harg5 : arg5.IsWhole) (arg6 : Memref sig .tc .vmem S256 .f32) (harg6 : arg6.IsWhole) (arg7 : Memref sig .tc .vmem S1x128x64x256 .f32) (harg7 : arg7.IsWhole) (arg8 : Memref sig .tc .vmem S128x64x512 .bf16) (harg8 : arg8.IsWhole) (x0 : Vec F S1x128x512 .f32) (x1 : Vec F S1x64x512 .f32) (s0 : Vec F S128x64x512 .bf16) :
    kernelRun.sl.v3 c i arg3 harg3 arg4 harg4 arg5 harg5 arg6 harg6 arg7 harg7 arg8 harg8 x0 x1 s0 = actBlk c i arg3 harg3 arg4 harg4 arg5 harg5 arg6 harg6 arg7 harg7 arg8 harg8 x0 x1 := by
  unfold kernelRun.sl.v3 actBlk
  rw [View.readAt_eq_ld, View.read_writes_eq_canon _ _ _ (cover_scratch c i arg3 harg3 arg4 harg4 arg5 harg5 arg6 harg6 arg7 harg7 arg8 harg8 _ _), View.ld_unit_zero off3_zero]

/-! ## What the body leaves in the output block -/

/-- The output block after the body: the matrix product of the scratch (read as 8192 × 512) with the weight block,
    plus the bias block on every row, re-stacked as 128 × 64 × 256. -/
def outBlk (c : Dev nD) (i : grid0.Coords) (arg3 : Memref sig .tc .vmem S1x128x512 .f32) (harg3 : arg3.IsWhole) (arg4 : Memref sig .tc .vmem S1x64x512 .f32) (harg4 : arg4.IsWhole) (arg5 : Memref sig .tc .vmem S512x256 .bf16) (harg5 : arg5.IsWhole) (arg6 : Memref sig .tc .vmem S256 .f32) (harg6 : arg6.IsWhole) (arg7 : Memref sig .tc .vmem S1x128x64x256 .f32) (harg7 : arg7.IsWhole) (arg8 : Memref sig .tc .vmem S128x64x512 .bf16) (harg8 : arg8.IsWhole) (x0 : Vec F S1x128x512 .f32) (x1 : Vec F S1x64x512 .f32) (x2 : Vec F S512x256 .bf16) (x3 : Vec F S256 .f32) : Vec F S1x128x64x256 .f32 :=
  k0_pay2 (actBlk c i arg3 harg3 arg4 harg4 arg5 harg5 arg6 harg6 arg7 harg7 arg8 harg8 x0 x1) x2 x3

/-- The pieces the run found: one store of the whole output block. -/
theorem kernelRun_pieces (c : Dev nD) (i : grid0.Coords) (arg3 : Memref sig .tc .vmem S1x128x512 .f32) (harg3 : arg3.IsWhole) (arg4 : Memref sig .tc .vmem S1x64x512 .f32) (harg4 : arg4.IsWhole) (arg5 : Memref sig .tc .vmem S512x256 .bf16) (harg5 : arg5.IsWhole) (arg6 : Memref sig .tc .vmem S256 .f32) (harg6 : arg6.IsWhole) (arg7 : Memref sig .tc .vmem S1x128x64x256 .f32) (harg7 : arg7.IsWhole) (arg8 : Memref sig .tc .vmem S128x64x512 .bf16) (harg8 : arg8.IsWhole) (x0 : Vec F S1x128x512 .f32) (x1 : Vec F S1x64x512 .f32) (x2 : Vec F S512x256 .bf16) (x3 : Vec F S256 .f32) (s0 : Vec F S128x64x512 .bf16) :
    (kernelRun c i arg3 harg3 arg4 harg4 arg5 harg5 arg6 harg6 arg7 harg7 arg8 harg8 x0 x1 x2 x3 s0).1
      = [⟨Rect.unit (s := S1x128x64x256) ![0, 0, 0, 0] S1x128x64x256.size inb_S1x128x64x256_S1x128x64x256_0_0_0_0,
          k0_pay2 (kernelRun.sl.v3 c i arg3 harg3 arg4 harg4 arg5 harg5 arg6 harg6 arg7 harg7 arg8 harg8 x0 x1 s0)
            (View.readAt (Elt F) arg5.view (Rect.unit (s := S512x256) ![0, 0] S512x256.size inb_S512x256_S512x256_0_0).toLoadRect (harg5.unread x2))
            (View.readAt (Elt F) arg6.view (Rect.unit (s := S256) ![0] S256.size inb_S256_S256_0).toLoadRect (harg6.unread x3))⟩] := by
  unfold kernelRun; rfl

/-- Read back through any view of the block's shape, over any prior contents, the run's pieces are `outBlk`. -/
theorem read_out (c : Dev nD) (i : grid0.Coords) (arg3 : Memref sig .tc .vmem S1x128x512 .f32) (harg3 : arg3.IsWhole) (arg4 : Memref sig .tc .vmem S1x64x512 .f32) (harg4 : arg4.IsWhole) (arg5 : Memref sig .tc .vmem S512x256 .bf16) (harg5 : arg5.IsWhole) (arg6 : Memref sig .tc .vmem S256 .f32) (harg6 : arg6.IsWhole) (arg7 : Memref sig .tc .vmem S1x128x64x256 .f32) (harg7 : arg7.IsWhole) (arg8 : Memref sig .tc .vmem S128x64x512 .bf16) (harg8 : arg8.IsWhole) (x0 : Vec F S1x128x512 .f32) (x1 : Vec F S1x64x512 .f32) (x2 : Vec F S512x256 .bf16) (x3 : Vec F S256 .f32) (s0 : Vec F S128x64x512 .bf16)
    {κ : Kind} {sp : Space} (v : View sig κ sp S1x128x64x256 .f32) (f : v.ty.Contents (Elt F)) :
    v.read (Elt F) (v.writes (Elt F) f (kernelRun c i arg3 harg3 arg4 harg4 arg5 harg5 arg6 harg6 arg7 harg7 arg8 harg8 x0 x1 x2 x3 s0).1) = outBlk c i arg3 harg3 arg4 harg4 arg5 harg5 arg6 harg6 arg7 harg7 arg8 harg8 x0 x1 x2 x3 := by
  rw [kernelRun_pieces,
    View.read_writes_eq_canon _ _ _ (fun y => ⟨_, List.mem_singleton_self _, View.mem_set_unit_zero off4_zero inb_S1x128x64x256_S1x128x64x256_0_0_0_0 y⟩),
    View.canon_unit_zero off4_zero, loaded_scratch]
  unfold outBlk
  rw [View.readAt_eq_ld, View.readAt_eq_ld, harg5.read_unread, harg6.read_unread, View.ld_unit_zero off2_zero, View.ld_unit_zero off1_zero]

/-! ## The staging memrefs at a point -/

abbrev ms0 (t : Fin cfg0.N) : Memref sig .tc .vmem S1x128x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x64x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128x64x256 .f32 := win0_4.stage (cfg0.slots t 4)
abbrev hs4 (t : Fin cfg0.N) : (ms4 t).IsWhole := hstage0_4 ((cfg0.slots t 4).cast nbuf0_4)
/-- The scratch operand: a whole scoped buffer of the kernel's own. -/
abbrev scM : Memref sig .tc .vmem S128x64x512 .bf16 := Memref.whole cc0_scratch0

/-- The pipeline's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What the output's staging buffer holds after the body at point `t`. -/
def outAt (c : Dev nD) (t : Fin cfg0.N) : Vec F S1x128x64x256 .f32 :=
  outBlk c (grid0.coords t) (ms0 t) (hs0 t) (ms1 t) (hs1 t) (ms2 t) (hs2 t) (ms3 t) (hs3 t) (ms4 t) (hs4 t) scM (Memref.isWhole_whole _)
    (iblk m c 0 t) (iblk m c 1 t) (iblk m c 2 t) (iblk m c 3 t)

/-! ## The pipeline's proof data -/

/-- The arrays as the region finds them; after the body each input's buffer at its block and the output's at
    `outAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

/-- The body at any point: the inputs' memrefs hold their blocks, the scratch is taken out of the invariant at
    whatever it holds and handed back, the output's buffer ends at `outAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  rw [show (dats m 0 c).Φ t.castSucc = Pipeline.ΦA spec0 c from rfl, PhiA_eq]
  unfold outAt
  iintro ⟨⟨⟨%ds, HS⟩, Hg⟩, Ho, ⟨%d0, H0⟩, ⟨%d1, H1⟩, ⟨%d2, H2⟩, ⟨%d3, H3⟩, ⟨%d4, H4⟩⟩
  iapply ((kernelRun c (grid0.coords t) _ _ _ _ _ _ _ _ _ _ _ _ (iblk m c 0 t) (iblk m c 1 t) (iblk m c 2 t) (iblk m c 3 t) ds).2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact read_out c _ _ _ _ _ _ _ _ _ _ _ _ _ _ _ _ _ ds _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, every array of the pipeline ending at what the library
    computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.LibOuterLayout.lean ====
/-
  Layout operations and reductions of an OUTER-PRODUCT body, read at coordinates.

  A body that multiplies every entry of one row by every entry of another builds an `[a, b, n]` array from two
  matrices: the first, `[a, b]`, is given a trailing unit axis and spread along the last axis; the second, `[a, n]`,
  is given a MIDDLE unit axis and spread along the middle axis. It then sums the product along one of the two
  trailing axes, and takes a row's maximum for a softmax. None of these computes anything but the sums and the
  maximum; the lemmas name, by coordinates, which entries each result reads:
    • `[a, n] → [a, 1, n]` (a shape cast): entry `(r, u, k)` is entry `(r, k)`, whatever the unit coordinate;
    • `[a, 1, n] → [a, b, n]` (a broadcast): entry `(r, s, k)` is entry `(r, 0, k)`;
    • their composite: `(r, s, k)` reads the matrix at `(r, k)`;
    • a sum along the LAST axis of an `[a, b, n]` array of extended reals: entry `(r, s)` is `∑ₖ` of `(r, s, k)`;
    • a sum along the MIDDLE axis: entry `(r, k)` is `∑ₛ` of `(r, s, k)`;
    • a maximum along the second axis of an `[a, b]` array, from the accumulator's value: entry `r` is the fold of
      `max` over `j` of the entries `(r, j)` — for a vector reduction and for the host's one-operand reduce alike.
  The trailing-unit-axis forms (`[a, b] → [a, b, 1] → [a, b, n]`) and the column forms are in their own files.
-/
import Idealize.ShloMosaic.Lib.Pipeline.Value
import Idealize.ShloMosaic.Lib.ValueIdx
import Idealize.ShloMosaic.PureOps.Ideal.Laws

namespace Cert.OuterLayout

open Idealize.ShloMosaic Idealize.ShloMosaic.ValueIdx

variable {α : Type}

/-- An `[a, n]` array cast to `[a, 1, n]` reads, at `(r, u, k)`, the operand at `(r, k)`: the two indices have the same
    row-major position, `(r·1 + u)·n + k = r·n + k` since `u = 0`. -/
theorem shapeCast_an_a1n_apply {a n : ℕ} (x : (⟨2, ![a, n]⟩ : Shape).Idx → α)
    (h : (⟨2, ![a, n]⟩ : Shape).ShapeCasts ⟨3, ![a, 1, n]⟩) (r : Fin a) (u : Fin 1) (k : Fin n) :
    shapeCast ⟨3, ![a, 1, n]⟩ x h (ix3 r u k) = x (ix2 r k) :=
  shapeCast_apply x h _ _ (by
    have hu : u.val = 0 := by omega
    rw [Shape.rowMajor_val_two, Shape.rowMajor_val_three]
    show r.val * n + k.val = (r.val * 1 + u.val) * n + k.val
    rw [hu, Nat.mul_one, Nat.add_zero])

/-- An `[a, 1, n]` array broadcast to `[a, b, n]` reads, at `(r, s, k)`, the operand at `(r, 0, k)`. -/
theorem broadcastTo_a1n_abn_apply {a b n : ℕ} (y : (⟨3, ![a, 1, n]⟩ : Shape).Idx → α)
    (h : (⟨3, ![a, 1, n]⟩ : Shape).Broadcasts ⟨3, ![a, b, n]⟩) (r : Fin a) (s : Fin b) (k : Fin n) :
    broadcastTo ⟨3, ![a, b, n]⟩ y h (ix3 r s k) = y (ix3 r (0 : Fin 1) k) := by
  refine broadcastTo_apply y h (ix3 r s k) (ix3 r (0 : Fin 1) k) fun ax => ?_
  match ax with
  | ⟨0, _⟩ =>
    show r.val = if a = 1 then 0 else r.val
    split
    · have := r.isLt; omega
    · rfl
  | ⟨1, _⟩ => rfl
  | ⟨2, _⟩ =>
    show k.val = if n = 1 then 0 else k.val
    split
    · have := k.isLt; omega
    · rfl

/-- An `[a, n]` matrix given a middle unit axis and broadcast along it: `(r, s, k)` reads the matrix at `(r, k)`. -/
theorem middle_apply {a b n : ℕ} (x : (⟨2, ![a, n]⟩ : Shape).Idx → α)
    (hc : (⟨2, ![a, n]⟩ : Shape).ShapeCasts ⟨3, ![a, 1, n]⟩) (hb : (⟨3, ![a, 1, n]⟩ : Shape).Broadcasts ⟨3, ![a, b, n]⟩)
    (r : Fin a) (s : Fin b) (k : Fin n) :
    broadcastTo ⟨3, ![a, b, n]⟩ (shapeCast ⟨3, ![a, 1, n]⟩ x hc) hb (ix3 r s k) = x (ix2 r k) :=
  (broadcastTo_a1n_abn_apply _ hb r s k).trans (shapeCast_an_a1n_apply x hc r 0 k)

/-- A sum along the last axis of an `[a, b, n]` array of extended reals, from the zero accumulator, reads at `(r, s)`
    the sum over `k` of the entries `(r, s, k)`. The last hypothesis says that the accumulator's word, zero, is the
    neutral word of addition. -/
theorem sumLast_apply {a b n : ℕ} (src : FVec Ideal ⟨3, ![a, b, n]⟩ .f32)
    (h : (⟨3, ![a, b, n]⟩ : Shape).Reduces [2] ⟨2, ![a, b]⟩) (hφ : FKind.Formats .f32)
    (hacc : (0x00000000#32 : BitVec 32) = FKind.add.neutral .f32 hφ) (r : Fin a) (s : Fin b) :
    multiReduction .add [2] ⟨2, ![a, b]⟩ src 0x00000000#32 h hφ hacc (ix2 r s) = ∑ k : Fin n, src (ix3 r s k) := by
  refine (Ideal.multiReduction_add_single src 0x00000000#32 h hφ hacc (ix2 r s)).trans ?_
  show ∑ k : Fin n, src (h.lift (ix2 r s) k) = ∑ k : Fin n, src (ix3 r s k)
  refine Finset.sum_congr rfl fun k _ => congrArg src (funext fun c => Fin.ext ?_)
  match c with
  | ⟨0, _⟩ => rfl
  | ⟨1, _⟩ => rfl
  | ⟨2, _⟩ => rfl

/-- A sum along the middle axis of an `[a, b, n]` array of extended reals, from the zero accumulator, reads at `(r, k)`
    the sum over `s` of the entries `(r, s, k)`. -/
theorem sumMiddle_apply {a b n : ℕ} (src : FVec Ideal ⟨3, ![a, b, n]⟩ .f32)
    (h : (⟨3, ![a, b, n]⟩ : Shape).Reduces [1] ⟨2, ![a, n]⟩) (hφ : FKind.Formats .f32)
    (hacc : (0x00000000#32 : BitVec 32) = FKind.add.neutral .f32 hφ) (r : Fin a) (k : Fin n) :
    multiReduction .add [1] ⟨2, ![a, n]⟩ src 0x00000000#32 h hφ hacc (ix2 r k) = ∑ s : Fin b, src (ix3 r s k) := by
  refine (Ideal.multiReduction_add_single src 0x00000000#32 h hφ hacc (ix2 r k)).trans ?_
  show ∑ s : Fin b, src (h.lift (ix2 r k) s) = ∑ s : Fin b, src (ix3 r s k)
  refine Finset.sum_congr rfl fun s _ => congrArg src (funext fun c => Fin.ext ?_)
  match c with
  | ⟨0, _⟩ => rfl
  | ⟨1, _⟩ => rfl
  | ⟨2, _⟩ => rfl

/-- A maximum along the second axis of an `[a, b]` array of extended reals reads, at `r`, the fold of `max`, from the
    value the accumulator's word denotes, over `j` of the entries `(r, j)`. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun j => src (ix2 r j)) := by
  refine (Ideal.multiReduction_maximumf_single src acc h hφ hacc (ix1 r)).trans ?_
  show (Finset.univ : Finset (Fin b)).fold max (Ideal.ofBits .f32 acc) (src ∘ h.lift (ix1 r)) = _
  refine congrArg (fun f => Finset.fold max (Ideal.ofBits .f32 acc) f (Finset.univ : Finset (Fin b)))
    (funext fun j => congrArg src (funext fun c => Fin.ext ?_))
  match c with
  | ⟨0, _⟩ => rfl
  | ⟨1, _⟩ => rfl

/-- The host's one-operand reduce with a maximum body along the second axis of an `[a, b]` array of extended reals
    reads, at `r`, the fold of `max`, from the initial value's one element, over `j` of the entries `(r, j)`: the same
    fold as the vector reduction's. -/
theorem hostRowMax_apply {a b : ℕ} {u : Shape} (x : (⟨2, ![a, b]⟩ : Shape).Idx → Ideal .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun j => x (ix2 r j)) := by
  refine (Host.reduce_eq_fold_single FloatOps.maximumf x init h' h hu (ix1 r)).trans ?_
  show (Finset.univ : Finset (Fin b)).fold max (init (Shape.Idx.first hu)) (x ∘ h.lift (ix1 r)) = _
  refine congrArg (fun f => Finset.fold max (init (Shape.Idx.first hu)) f (Finset.univ : Finset (Fin b)))
    (funext fun j => congrArg x (funext fun c => Fin.ext ?_))
  match c with
  | ⟨0, _⟩ => rfl
  | ⟨1, _⟩ => rfl

end Cert.OuterLayout
-- ==== Proof.LibLeadingAxisLayout.lean ====
/-
  Layout operations that add a LEADING unit axis and spread along it, read at coordinates, at every extent:

  • a stack of one matrix spread along the leading axis, `[1, b, n] → [a, b, n]`: entry `(r, s, k)` is entry
    `(0, s, k)` of the operand (`broadcastTo_1bn_abn_apply`);
  • a vector laid as one row and spread over `m` rows, `[n] → [1, n] → [m, n]`: entry `(j, v)` is the vector's
    entry `v` (`rows_apply`) — a bias added to every row of a matrix.

  Each is the library's `broadcastTo_apply` (a unit axis reads coordinate `0`) or its rank-2 forms composed, with
  both indices written by coordinates.
-/
import Idealize.ShloMosaic.Lib.Pipeline.Value
import Idealize.ShloMosaic.Lib.ValueIdx
import Idealize.ShloMosaic.Lib.ValueLayout

namespace Cert.LeadingAxisLayout

open Idealize.ShloMosaic Idealize.ShloMosaic.ValueIdx

variable {α : Type}

/-- A `[1, b, n]` array broadcast to `[a, b, n]` reads, at `(r, s, k)`, the operand at `(0, s, k)`. -/
theorem broadcastTo_1bn_abn_apply {a b n : ℕ} (y : (⟨3, ![1, b, n]⟩ : Shape).Idx → α)
    (h : (⟨3, ![1, b, n]⟩ : Shape).Broadcasts ⟨3, ![a, b, n]⟩) (r : Fin a) (s : Fin b) (k : Fin n) :
    broadcastTo ⟨3, ![a, b, n]⟩ y h (ix3 r s k) = y (ix3 (0 : Fin 1) s k) := by
  refine broadcastTo_apply y h (ix3 r s k) (ix3 (0 : Fin 1) s k) fun ax => ?_
  match ax with
  | ⟨0, _⟩ => rfl
  | ⟨1, _⟩ =>
    show s.val = if b = 1 then 0 else s.val
    split
    · have := s.isLt; omega
    · rfl
  | ⟨2, _⟩ =>
    show k.val = if n = 1 then 0 else k.val
    split
    · have := k.isLt; omega
    · rfl

/-- A vector laid as one row and spread over `m` rows reads, at `(j, v)`, the vector at `v`. -/
theorem rows_apply {m n : ℕ} (q : (⟨1, ![n]⟩ : Shape).Idx → α) (hc : (⟨1, ![n]⟩ : Shape).ShapeCasts ⟨2, ![1, n]⟩)
    (hb : (⟨2, ![1, n]⟩ : Shape).Broadcasts ⟨2, ![m, n]⟩) (j : Fin m) (v : Fin n) :
    broadcastTo ⟨2, ![m, n]⟩ (shapeCast ⟨2, ![1, n]⟩ q hc) hb (ix2 j v) = q (ix1 v) :=
  (broadcastTo_1b_ab_apply _ hb j v).trans (shapeCast_a_1a_apply q hc 0 v)

end Cert.LeadingAxisLayout
-- ==== Proof.ActValue.lean ====
/-
  The activation the loop leaves in the scratch, at the ideal reading.

  Trip k of the loop reads rows 16k … 16k + 15 of the source block (through its matrix view), adds every one of the
  64 target rows to each, clamps at zero and stores the result at rows 16k … 16k + 15 of the scratch; the change of
  float format on the way is the identity on the extended reals. Every stored piece therefore restricts ONE
  function of the scratch index (r, u, k): max(src[r, k] + tgt[u, k], 0). The pieces tile the scratch, so after the
  loop the scratch holds that function.
-/
import proofs.«110004_j20873541058896_2_alg».proof.Proof.IdealFrame
import proofs.«110004_j20873541058896_2_alg».proof.Proof.LibOuterLayout
import proofs.«110004_j20873541058896_2_alg».proof.Proof.LibLeadingAxisLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.JointValue

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)
open scoped BigOperators

/-! ## One trip's payload at an index -/

/-- The clamped sum: the activation of one source row against one target row, feature by feature. -/
def actOf (S : FVec Ideal S128x512 .f32) (T : FVec Ideal S1x64x512 .f32) : FVec Ideal S128x64x512 .bf16 :=
  fun y => FloatOps.truncf .bf16 bitsLt_bf16_f32
    (FloatOps.maximumf (FloatOps.addf (S (ix2 (y 0) (y 2))) (T (ix3 (0 : Fin 1) (y 1) (y 2)))) (FloatOps.ofBits .f32 0x00000000#32))

/-- A trip's stored value at `(a, u, d)`: source row `a` of the trip's sixteen plus target row `u`, clamped at zero. -/
theorem pay1_apply (v0 : FVec Ideal S1x64x512 .f32) (v21 : FVec Ideal S16x512 .f32) (a : Fin 16) (u : Fin 64) (d : Fin 512) :
    k0_pay1 (F := Ideal) v0 v21 (ix3 a u d)
      = FloatOps.truncf .bf16 bitsLt_bf16_f32
          (FloatOps.maximumf (FloatOps.addf (v21 (ix2 a d)) (v0 (ix3 (0 : Fin 1) u d))) (FloatOps.ofBits .f32 0x00000000#32)) := by
  unfold k0_pay1
  refine (congrFun (shapeCast_self _ _) _).trans ?_
  show FloatOps.truncf .bf16 bitsLt_bf16_f32 (FloatOps.maximumf (FloatOps.addf
      (broadcastTo S16x64x512 (shapeCast S16x1x512 v21 shapeCasts_S16x512_S16x1x512) broadcasts_S16x1x512_S16x64x512 (ix3 a u d))
      (broadcastTo S16x64x512 (shapeCast S1x64x512 (shapeCast S64x512 v0 shapeCasts_S1x64x512_S64x512) shapeCasts_S64x512_S1x64x512) broadcasts_S1x64x512_S16x64x512 (ix3 a u d)))
      (FloatOps.ofBits .f32 0x00000000#32)) = _
  rw [Cert.OuterLayout.middle_apply, shapeCast_shapeCast, Cert.LeadingAxisLayout.broadcastTo_1bn_abn_apply]

/-! ## The trips' pieces -/

section Pieces
variable {F : FTy → Type} [FloatOps F]

/-- Trip `k` stores one piece: its payload through the rectangle of rows 16k … 16k + 15. -/
theorem tripL_eq (𝒱 : Variants) (c : Dev nD) (bd : Option 𝒱.V) (i : grid0.Coords) (arg3 : Memref sig .tc .vmem S1x128x512 .f32) (harg3 : arg3.IsWhole) (arg4 : Memref sig .tc .vmem S1x64x512 .f32) (harg4 : arg4.IsWhole) (arg5 : Memref sig .tc .vmem S512x256 .bf16) (harg5 : arg5.IsWhole) (arg6 : Memref sig .tc .vmem S256 .f32) (harg6 : arg6.IsWhole) (arg7 : Memref sig .tc .vmem S1x128x64x256 .f32) (harg7 : arg7.IsWhole) (arg8 : Memref sig .tc .vmem S128x64x512 .bf16) (harg8 : arg8.IsWhole) (v0 : Vec F S1x64x512 .f32) (mv : Memref sig .tc .vmem S128x512 .f32)
    (hcanon : (arg3.slice (Rect.unit (s := S1x128x512) ![0, 0, 0] S1x128x512.size inb_S1x128x512_S1x128x512_0_0_0) (fun _ => rfl)).squeeze S128x512 squeezes_S1x128x512_S128x512 = mv)
    (X : BufTy.Contents (Elt F) mv.view.ty) (k : Fin k0_t1_loop.trips) :
    tripL_k0_t1 (F := F) 𝒱 c bd i arg3 harg3 arg4 harg4 arg5 harg5 arg6 harg6 arg7 harg7 arg8 harg8 v0 mv hcanon X k
      = [⟨Rect.unit (s := S128x64x512) (k0_off2 k) S16x64x512.size (k0_off2_inb k),
          k0_pay1 v0 (View.readAt (Elt F) mv.view (Rect.unit (s := S128x512) (k0_off1 k) S16x512.size (k0_off1_inb k)).toLoadRect X)⟩] := by
  unfold tripL_k0_t1 trip_k0_t1; rfl

/-- Every piece stored before trip `n` is some trip's. -/
theorem mem_pb (𝒱 : Variants) (c : Dev nD) (bd : Option 𝒱.V) (i : grid0.Coords) (arg3 : Memref sig .tc .vmem S1x128x512 .f32) (harg3 : arg3.IsWhole) (arg4 : Memref sig .tc .vmem S1x64x512 .f32) (harg4 : arg4.IsWhole) (arg5 : Memref sig .tc .vmem S512x256 .bf16) (harg5 : arg5.IsWhole) (arg6 : Memref sig .tc .vmem S256 .f32) (harg6 : arg6.IsWhole) (arg7 : Memref sig .tc .vmem S1x128x64x256 .f32) (harg7 : arg7.IsWhole) (arg8 : Memref sig .tc .vmem S128x64x512 .bf16) (harg8 : arg8.IsWhole) (v0 : Vec F S1x64x512 .f32) (mv : Memref sig .tc .vmem S128x512 .f32)
    (hcanon : (arg3.slice (Rect.unit (s := S1x128x512) ![0, 0, 0] S1x128x512.size inb_S1x128x512_S1x128x512_0_0_0) (fun _ => rfl)).squeeze S128x512 squeezes_S1x128x512_S128x512 = mv)
    (X : BufTy.Contents (Elt F) mv.view.ty) :
    ∀ (n : ℕ) (p : View.Piece (Elt F) S128x64x512 .bf16), p ∈ pb_k0_t1 (F := F) 𝒱 c bd i arg3 harg3 arg4 harg4 arg5 harg5 arg6 harg6 arg7 harg7 arg8 harg8 v0 mv hcanon X n →
      ∃ k : Fin k0_t1_loop.trips, p ∈ tripL_k0_t1 (F := F) 𝒱 c bd i arg3 harg3 arg4 harg4 arg5 harg5 arg6 harg6 arg7 harg7 arg8 harg8 v0 mv hcanon X k
  | 0, p, h => by rw [pb_k0_t1.eq_1] at h; exact absurd h List.not_mem_nil
  | n + 1, p, h => by
    rw [pb_k0_t1.eq_2] at h; unfold pb_k0_t1Step at h
    by_cases hn : n < k0_t1_loop.trips
    · rw [dif_pos hn] at h
      rcases List.mem_append.mp h with h | h
      · exact ⟨⟨n, hn⟩, h⟩
      · exact mem_pb 𝒱 c bd i arg3 harg3 arg4 harg4 arg5 harg5 arg6 harg6 arg7 harg7 arg8 harg8 v0 mv hcanon X n p h
    · rw [dif_neg hn] at h
      exact mem_pb 𝒱 c bd i arg3 harg3 arg4 harg4 arg5 harg5 arg6 harg6 arg7 harg7 arg8 harg8 v0 mv hcanon X n p h

end Pieces

/-! ## The source rows through the matrix view, and the target block's load -/

/-- Row `r` of the matrix view of the source block is row `(0, r)` of the block. -/
theorem srcRows_apply (arg3 : Memref sig .tc .vmem S1x128x512 .f32) (harg3 : arg3.IsWhole) (x0 : FVec Ideal S1x128x512 .f32) (r : Fin 128) (d : Fin 512) :
    (srcMat arg3).view.read (Elt Ideal) (harg3.unread x0) (ix2 r d) = x0 (ix3 (0 : Fin 1) r d) := by
  have hc : S1x128x512.ShapeCasts S128x512 := by decide
  have e : (srcMat arg3).view.read (Elt Ideal) (harg3.unread x0)
      = shapeCast S128x512 (arg3.view.readAt (Elt Ideal) (Rect.unit (s := S1x128x512) ![0, 0, 0] S1x128x512.size inb_S1x128x512_S1x128x512_0_0_0).toLoadRect (harg3.unread x0)) hc :=
    Memref.read_squeeze_slice arg3 _ _ _ hc _
  rw [e, View.readAt_eq_ld, harg3.read_unread, View.ld_unit_zero off3_zero]
  exact shapeCast_1ab_ab_apply x0 hc r d

/-- The whole-block load of the target block reads the block. -/
theorem tgt_load (arg4 : Memref sig .tc .vmem S1x64x512 .f32) (harg4 : arg4.IsWhole) (x1 : FVec Ideal S1x64x512 .f32) :
    View.readAt (Elt Ideal) arg4.view (Rect.unit (s := S1x64x512) ![0, 0, 0] S1x64x512.size inb_S1x64x512_S1x64x512_0_0_0).toLoadRect (harg4.unread x1) = x1 := by
  rw [View.readAt_eq_ld, harg4.read_unread, View.ld_unit_zero off3_zero]

/-! ## The scratch after the loop -/

/-- The scratch after the loop holds the activation of the source block's rows against the target block's rows. -/
theorem actBlk_eq (c : Dev nD) (i : grid0.Coords) (arg3 : Memref sig .tc .vmem S1x128x512 .f32) (harg3 : arg3.IsWhole) (arg4 : Memref sig .tc .vmem S1x64x512 .f32) (harg4 : arg4.IsWhole) (arg5 : Memref sig .tc .vmem S512x256 .bf16) (harg5 : arg5.IsWhole) (arg6 : Memref sig .tc .vmem S256 .f32) (harg6 : arg6.IsWhole) (arg7 : Memref sig .tc .vmem S1x128x64x256 .f32) (harg7 : arg7.IsWhole) (arg8 : Memref sig .tc .vmem S128x64x512 .bf16) (harg8 : arg8.IsWhole) (x0 : FVec Ideal S1x128x512 .f32) (x1 : FVec Ideal S1x64x512 .f32) :
    actBlk (F := Ideal) c i arg3 harg3 arg4 harg4 arg5 harg5 arg6 harg6 arg7 harg7 arg8 harg8 x0 x1 = actOf ((srcMat arg3).view.read (Elt Ideal) (harg3.unread x0)) x1 := by
  funext y
  unfold actBlk
  refine View.canon_apply_of_pieces (Val := Elt Ideal) (S := S128x64x512) (e := .bf16) (actOf ((srcMat arg3).view.read (Elt Ideal) (harg3.unread x0)) x1) _ (fun p hp x => ?_) y (cover_scratch c i arg3 harg3 arg4 harg4 arg5 harg5 arg6 harg6 arg7 harg7 arg8 harg8 _ _ y)
  obtain ⟨k, hk⟩ := mem_pb _ c _ i arg3 harg3 arg4 harg4 arg5 harg5 arg6 harg6 arg7 harg7 arg8 harg8 _ _ _ _ _ p hp
  rw [tripL_eq, List.mem_singleton] at hk
  subst hk
  obtain ⟨a, u, d, rfl⟩ : ∃ (a : Fin 16) (u : Fin 64) (d : Fin 512), x = ix3 a u d := ⟨x 0, x 1, x 2, eq_ix3 x⟩
  show k0_pay1 (F := Ideal) _ _ (ix3 a u d) = _
  rw [pay1_apply, tgt_load]
  unfold actOf
  have hk8 : k.val < 8 := Nat.lt_of_lt_of_le k.isLt k0_t1_abs.2.1
  have e1 : (Rect.unit (s := S128x512) (k0_off1 k) S16x512.size (k0_off1_inb k)).toLoadRect.idx (ix2 a d)
      = ix2 ((Rect.unit (s := S128x64x512) (k0_off2 k) S16x64x512.size (k0_off2_inb k)).emb (ix3 a u d) 0)
          ((Rect.unit (s := S128x64x512) (k0_off2 k) S16x64x512.size (k0_off2_inb k)).emb (ix3 a u d) 2) := by
    funext ax; apply Fin.ext
    match ax with
    | ⟨0, _⟩ => show k0_off1 k 0 + 1 * a.val = k0_off2 k 0 + 1 * a.val; rw [k0_off1_eq, k0_off2_eq]; rfl
    | ⟨1, _⟩ => show k0_off1 k 1 + 1 * d.val = k0_off2 k 2 + 1 * d.val; rw [k0_off1_eq, k0_off2_eq]; rfl
  have e2 : (ix3 (0 : Fin 1) u d : S1x64x512.Idx)
      = ix3 (0 : Fin 1) ((Rect.unit (s := S128x64x512) (k0_off2 k) S16x64x512.size (k0_off2_inb k)).emb (ix3 a u d) 1)
          ((Rect.unit (s := S128x64x512) (k0_off2 k) S16x64x512.size (k0_off2_inb k)).emb (ix3 a u d) 2) := by
    funext ax; apply Fin.ext
    match ax with
    | ⟨0, _⟩ => rfl
    | ⟨1, _⟩ => show u.val = k0_off2 k 1 + 1 * u.val; rw [k0_off2_eq]; show u.val = 0 + 1 * u.val; omega
    | ⟨2, _⟩ => show d.val = k0_off2 k 2 + 1 * d.val; rw [k0_off2_eq]; show d.val = 0 + 1 * d.val; omega
  rw [View.readAt_apply, e1, e2]
  rfl

end Cert.KernelIdeal.JointValue

end
-- ==== Proof.LibRank3Layout.lean ====
/-
  Rank-3 layout operations read at coordinates — the forms a body meets when it compares every entry of an `[a, b]`
  block with every entry of a length-`n` vector and then flattens the two leading axes for a matrix product:

  • a TRAILING unit axis added by a shape cast, `[a, b] → [a, b, 1]` (`shapeCast_ab_ab1_apply`);
  • a vector laid along the LAST axis by a shape cast, `[n] → [1, 1, n]` (`shapeCast_n_11n_apply`);
  • the broadcast of the first along the last axis, `[a, b, 1] → [a, b, n]` (`broadcastTo_ab1_abn_apply`), and of the
    second along the two leading axes, `[1, 1, n] → [a, b, n]` (`broadcastTo_11n_abn_apply`);
  • the two composites, which read `(r, s, k)` at `(r, s)` of the block (`column_apply`) and at `k` of the vector
    (`row_apply`);
  • the two leading axes MERGED, `[a, b, n] → [m, n]` with `m = a·b`, and SPLIT again, `[m, d] → [a, b, d]`: row
    `j = r·b + s` of the flat array is row `(r, s)` of the stacked one (`shapeCast_abn_mn_apply`,
    `shapeCast_md_abd_apply`; the flat row is passed with the equation `j = r·b + s`, so that a literal extent such
    as `4096` need not be recognised as a product).

  Each is the library's `shapeCast_apply` (equal row-major positions) or `broadcastTo_apply` (a unit axis reads
  coordinate `0`) with both indices written by coordinates, at every extent.
-/
import Idealize.ShloMosaic.Lib.Pipeline.Value
import Idealize.ShloMosaic.Lib.ValueIdx

namespace Cert.Rank3Layout

open Idealize.ShloMosaic Idealize.ShloMosaic.ValueIdx

variable {α : Type}

/-- An `[a, b]` array cast to `[a, b, 1]` reads, at `(r, s, u)`, the operand at `(r, s)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (r : Fin a) (s : Fin b) (u : Fin 1) :
    shapeCast ⟨3, ![a, b, 1]⟩ x h (ix3 r s u) = x (ix2 r s) :=
  shapeCast_apply x h _ _ (by
    have hu : u.val = 0 := by omega
    rw [Shape.rowMajor_val_two, Shape.rowMajor_val_three]
    show r.val * b + s.val = (r.val * b + s.val) * 1 + u.val
    rw [hu, Nat.mul_one, Nat.add_zero])

/-- An `[n]` vector cast to `[1, 1, n]` reads, at `(u, u', k)`, the operand at `k`, whatever the unit coordinates. -/
theorem shapeCast_n_11n_apply {n : ℕ} (q : (⟨1, ![n]⟩ : Shape).Idx → α)
    (h : (⟨1, ![n]⟩ : Shape).ShapeCasts ⟨3, ![1, 1, n]⟩) (u u' : Fin 1) (k : Fin n) :
    shapeCast ⟨3, ![1, 1, n]⟩ q h (ix3 u u' k) = q (ix1 k) :=
  shapeCast_apply q h _ _ (by
    have hu : u.val = 0 := by omega
    have hu' : u'.val = 0 := by omega
    rw [Shape.rowMajor_val_one, Shape.rowMajor_val_three]
    show k.val = (u.val * 1 + u'.val) * n + k.val
    rw [hu, hu']; simp)

/-- An `[a, b, 1]` array broadcast to `[a, b, n]` reads, at `(r, s, k)`, the operand at `(r, s, 0)`. -/
theorem broadcastTo_ab1_abn_apply {a b n : ℕ} (y : (⟨3, ![a, b, 1]⟩ : Shape).Idx → α)
    (h : (⟨3, ![a, b, 1]⟩ : Shape).Broadcasts ⟨3, ![a, b, n]⟩) (r : Fin a) (s : Fin b) (k : Fin n) :
    broadcastTo ⟨3, ![a, b, n]⟩ y h (ix3 r s k) = y (ix3 r s (0 : Fin 1)) := by
  refine broadcastTo_apply y h (ix3 r s k) (ix3 r s (0 : Fin 1)) fun ax => ?_
  match ax with
  | ⟨0, _⟩ =>
    show r.val = if a = 1 then 0 else r.val
    split
    · have := r.isLt; omega
    · rfl
  | ⟨1, _⟩ =>
    show s.val = if b = 1 then 0 else s.val
    split
    · have := s.isLt; omega
    · rfl
  | ⟨2, _⟩ => rfl

/-- A `[1, 1, n]` array broadcast to `[a, b, n]` reads, at `(r, s, k)`, the operand at `(0, 0, k)`. -/
theorem broadcastTo_11n_abn_apply {a b n : ℕ} (q : (⟨3, ![1, 1, n]⟩ : Shape).Idx → α)
    (h : (⟨3, ![1, 1, n]⟩ : Shape).Broadcasts ⟨3, ![a, b, n]⟩) (r : Fin a) (s : Fin b) (k : Fin n) :
    broadcastTo ⟨3, ![a, b, n]⟩ q h (ix3 r s k) = q (ix3 (0 : Fin 1) (0 : Fin 1) k) := by
  refine broadcastTo_apply q h (ix3 r s k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- An `[a, b]` block given a trailing unit axis and broadcast along it: `(r, s, k)` reads the block at `(r, s)`. -/
theorem column_apply {a b n : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, n]⟩)
    (r : Fin a) (s : Fin b) (k : Fin n) :
    broadcastTo ⟨3, ![a, b, n]⟩ (shapeCast ⟨3, ![a, b, 1]⟩ x hc) hb (ix3 r s k) = x (ix2 r s) :=
  (broadcastTo_ab1_abn_apply _ hb r s k).trans (shapeCast_ab_ab1_apply x hc r s 0)

/-- A length-`n` vector laid along the last axis and broadcast over the two leading ones: `(r, s, k)` reads it at `k`. -/
theorem row_apply {a b n : ℕ} (q : (⟨1, ![n]⟩ : Shape).Idx → α)
    (hc : (⟨1, ![n]⟩ : Shape).ShapeCasts ⟨3, ![1, 1, n]⟩) (hb : (⟨3, ![1, 1, n]⟩ : Shape).Broadcasts ⟨3, ![a, b, n]⟩)
    (r : Fin a) (s : Fin b) (k : Fin n) :
    broadcastTo ⟨3, ![a, b, n]⟩ (shapeCast ⟨3, ![1, 1, n]⟩ q hc) hb (ix3 r s k) = q (ix1 k) :=
  (broadcastTo_11n_abn_apply _ hb r s k).trans (shapeCast_n_11n_apply q hc 0 0 k)

/-- The two leading axes merged: an `[a, b, n]` array cast to `[m, n]` reads, at `(j, k)` with `j = r·b + s`, the
    operand at `(r, s, k)`. -/
theorem shapeCast_abn_mn_apply {a b n m : ℕ} (w : (⟨3, ![a, b, n]⟩ : Shape).Idx → α)
    (h : (⟨3, ![a, b, n]⟩ : Shape).ShapeCasts ⟨2, ![m, n]⟩) (r : Fin a) (s : Fin b) (k : Fin n) (j : Fin m)
    (hj : j.val = r.val * b + s.val) :
    shapeCast ⟨2, ![m, n]⟩ w h (ix2 j k) = w (ix3 r s k) :=
  shapeCast_apply w h _ _ (by
    rw [Shape.rowMajor_val_three, Shape.rowMajor_val_two]
    show (r.val * b + s.val) * n + k.val = j.val * n + k.val
    rw [hj])

/-- The leading axis split in two: an `[m, d]` array cast to `[a, b, d]` reads, at `(r, s, e)`, the operand at `(j, e)`
    with `j = r·b + s`. -/
theorem shapeCast_md_abd_apply {a b d m : ℕ} (z : (⟨2, ![m, d]⟩ : Shape).Idx → α)
    (h : (⟨2, ![m, d]⟩ : Shape).ShapeCasts ⟨3, ![a, b, d]⟩) (r : Fin a) (s : Fin b) (e : Fin d) (j : Fin m)
    (hj : j.val = r.val * b + s.val) :
    shapeCast ⟨3, ![a, b, d]⟩ z h (ix3 r s e) = z (ix2 j e) :=
  shapeCast_apply z h _ _ (by
    rw [Shape.rowMajor_val_two, Shape.rowMajor_val_three]
    show j.val * d + e.val = (r.val * b + s.val) * d + e.val
    rw [hj])

end Cert.Rank3Layout
-- ==== Proof.Spec.lean ====
/-
  What both programs compute, as one function of the four float arguments.

  For a batch entry b, a source step t, a target step u and an output feature v, the joint network's value is
      out[b, t, u, v] = (∑ₖ max(src[b, t, k] + tgt[b, u, k], 0) · W[v, k]) + bias[v],
  the sum over the 512 features k. The summand's first factor is the activation of the pair (t, u); the integer
  length arrays play no part. The function is stated over the extended reals with the float operations of the
  ideal reading (an addition, a maximum with the zero word, a product, a finite sum), index by index over the
  literal shapes.
-/
import Idealize.ShloMosaic.PureOps.Ideal
import Idealize.ShloMosaic.Lib.ValueIdx

noncomputable section

namespace Cert.JointSpec

open Idealize.ShloMosaic Idealize.ShloMosaic.ValueIdx
open scoped BigOperators

/-- The activation of source step `t` against target step `u` of batch entry `b`, at feature `k`:
    the sum of the two encodings clamped at zero. -/
def act (src : FVec Ideal ⟨3, ![8, 256, 512]⟩ .f32) (tgt : FVec Ideal ⟨3, ![8, 64, 512]⟩ .f32)
    (b : Fin 8) (t : Fin 256) (u : Fin 64) (k : Fin 512) : Ideal .f32 :=
  FloatOps.maximumf (FloatOps.addf (src (ix3 b t k)) (tgt (ix3 b u k))) (FloatOps.ofBits .f32 0x00000000#32)

/-- The joint network: the activation's 512 features contracted against row `v` of the weight, plus the bias. -/
def joint (src : FVec Ideal ⟨3, ![8, 256, 512]⟩ .f32) (tgt : FVec Ideal ⟨3, ![8, 64, 512]⟩ .f32)
    (W : FVec Ideal ⟨2, ![1024, 512]⟩ .f32) (bias : FVec Ideal ⟨1, ![1024]⟩ .f32) :
    FVec Ideal ⟨4, ![8, 256, 64, 1024]⟩ .f32 :=
  fun i => FloatOps.addf (∑ k : Fin 512, act src tgt (i 0) (i 1) (i 2) k * W (ix2 (i 3) k)) (bias (ix1 (i 3)))

end Cert.JointSpec

end
-- ==== Proof.OutValue.lean ====
/-
  The kernel computes the joint network's function.

  At a grid point (batch entry, source tile, feature tile) the output block's entry (r, u, v) is the sum over the 512
  features k of the scratch's entry (r, u, k) times the weight block's entry (k, v), plus the bias block's entry v:
  the scratch read as an 8192 × 512 matrix has row 64 r + u equal to the scratch's (r, u), the matrix product into
  the zero accumulator is the plain sum over the contracted axis, and the result is stacked back as 128 × 64 × 256.
  The weight block is a block of the transposed weight (the host transposes and changes float format, the identity
  on the extended reals), so its entry (k, v) is the weight's entry (v, k) at the tile's features. With the blocks read
  off the argument arrays where the point's index maps place them, what a point writes back is that point's block of
  the joint network's array; the output's blocks tile its array, so the array ends holding it.
-/
import proofs.«110004_j20873541058896_2_alg».proof.Proof.ActValue
import proofs.«110004_j20873541058896_2_alg».proof.Proof.LibRank3Layout
import proofs.«110004_j20873541058896_2_alg».proof.Proof.Spec
import Idealize.ShloMosaic.Lib.ValueIdx
import Idealize.ShloMosaic.Lib.ValueLayout
import Idealize.ShloMosaic.Lib.StableHlo.Run
import Idealize.ShloMosaic.Lib.Pipeline.Value
import Idealize.ShloMosaic.PureOps.Ideal.Laws

set_option maxRecDepth 16384

noncomputable section

namespace Cert.KernelIdeal.JointValue

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)
open scoped BigOperators

/-! ## The matrix product and the bias, at an index -/

/-- The body's one contraction: 8192 × 512 by 512 × 256. -/
abbrev prodDims := dot_S8192x512_S512x256_S8192x256_1_0_0_1_n_n

theorem lhs_row (j : S8192x256.Idx) (q : prodDims.contr.Idx) : (prodDims.lhsIdx j q 0).val = (j 0).val := by
  unfold DotDims.lhsIdx
  rw [dif_neg (show ¬(0 : Fin S8192x512.rank) ∈ prodDims.lhsBatch by decide), dif_pos (show (0 : Fin S8192x512.rank) ∈ prodDims.lhsNonContracting by decide)]
  rfl
theorem lhs_col (j : S8192x256.Idx) (q : prodDims.contr.Idx) : (prodDims.lhsIdx j q 1).val = (q ⟨0, by decide⟩).val :=
  prodDims.lhsIdx_val_of_single rfl j q
theorem rhs_row (j : S8192x256.Idx) (q : prodDims.contr.Idx) : (prodDims.rhsIdx j q 0).val = (q ⟨0, by decide⟩).val :=
  prodDims.rhsIdx_val_of_single rfl j q
theorem rhs_col (j : S8192x256.Idx) (q : prodDims.contr.Idx) : (prodDims.rhsIdx j q 1).val = (j 1).val := by
  unfold DotDims.rhsIdx
  rw [dif_neg (show ¬(1 : Fin S512x256.rank) ∈ prodDims.rhsBatch by decide), dif_pos (show (1 : Fin S512x256.rank) ∈ prodDims.rhsNonContracting by decide)]
  rfl

/-- The product into the zero accumulator, at `(j, v)`: row `j` of the left factor against column `v` of the right. -/
theorem prod_apply (A : FVec Ideal S8192x512 .bf16) (B : FVec Ideal S512x256 .bf16) (j : Fin 8192) (v : Fin 256) :
    matmul prodDims none A B (constant (F := Ideal) S8192x256 .f32 0x00000000#32) (ix2 j v)
      = ∑ k : Fin 512, A (ix2 j k) * B (ix2 k v) := by
  show FloatOps.matmul prodDims none A B (constant (F := Ideal) S8192x256 .f32 0x00000000#32) (ix2 j v) = _
  rw [Ideal.matmul_constant_zero_apply, ← Equiv.sum_comp (contrEquiv1 prodDims 512 rfl rfl).symm]
  refine Finset.sum_congr rfl fun k _ => ?_
  have hk := contrEquiv1_symm_val prodDims 512 rfl rfl k
  have el : prodDims.lhsIdx (ix2 j v) ((contrEquiv1 prodDims 512 rfl rfl).symm k) = ix2 j k := funext fun a => Fin.ext (by
    match a with
    | ⟨0, _⟩ => exact lhs_row _ _
    | ⟨1, _⟩ => exact (lhs_col _ _).trans hk)
  have er : prodDims.rhsIdx (ix2 j v) ((contrEquiv1 prodDims 512 rfl rfl).symm k) = ix2 k v := funext fun a => Fin.ext (by
    match a with
    | ⟨0, _⟩ => exact (rhs_row _ _).trans hk
    | ⟨1, _⟩ => exact rhs_col _ _)
  rw [el, er]

/-- The output block at `(0, r, u, v)`: the scratch's row `(r, u)` against the weight block's column `v`, plus the bias at `v`. -/
theorem pay2_apply (A : FVec Ideal S128x64x512 .bf16) (x2 : FVec Ideal S512x256 .bf16) (x3 : FVec Ideal S256 .f32) (r : Fin 128) (u : Fin 64) (v : Fin 256) :
    k0_pay2 (F := Ideal) A x2 x3 (ix4 (0 : Fin 1) r u v)
      = FloatOps.addf (∑ k : Fin 512, A (ix3 r u k) * x2 (ix2 k v)) (x3 (ix1 v)) := by
  unfold k0_pay2
  have hj : r.val * 64 + u.val < 8192 := by have := r.isLt; have := u.isLt; omega
  show shapeCast S1x128x64x256 (shapeCast S128x64x256 (addf
        (matmul prodDims none (shapeCast S8192x512 A shapeCasts_S128x64x512_S8192x512) (shapeCast S512x256 x2 shapeCasts_S512x256_S512x256) (constant (F := Ideal) S8192x256 .f32 0x00000000#32))
        (broadcastTo S8192x256 (shapeCast S1x256 x3 shapeCasts_S256_S1x256) broadcasts_S1x256_S8192x256))
      shapeCasts_S8192x256_S128x64x256) shapeCasts_S128x64x256_S1x128x64x256 (ix4 (0 : Fin 1) r u v) = _
  refine (shapeCast_abc_1abc_apply _ _ 0 r u v).trans ?_
  refine (Cert.Rank3Layout.shapeCast_md_abd_apply _ _ r u v ⟨r.val * 64 + u.val, hj⟩ rfl).trans ?_
  show FloatOps.addf (matmul prodDims none (shapeCast S8192x512 A shapeCasts_S128x64x512_S8192x512) (shapeCast S512x256 x2 shapeCasts_S512x256_S512x256) (constant (F := Ideal) S8192x256 .f32 0x00000000#32) (ix2 ⟨r.val * 64 + u.val, hj⟩ v))
      (broadcastTo S8192x256 (shapeCast S1x256 x3 shapeCasts_S256_S1x256) broadcasts_S1x256_S8192x256 (ix2 ⟨r.val * 64 + u.val, hj⟩ v)) = _
  rw [prod_apply, Cert.LeadingAxisLayout.rows_apply]
  refine congrArg (fun s => FloatOps.addf s (x3 (ix1 v))) (Finset.sum_congr rfl fun k _ => ?_)
  rw [Cert.Rank3Layout.shapeCast_abn_mn_apply A _ r u k ⟨r.val * 64 + u.val, hj⟩ rfl, shapeCast_self]

/-! ## The blocks on the argument arrays -/

section Flush
variable (m : (ℓ : Loc nD τ sig) → Buf (Elt Ideal) ℓ) (ρ : Dev nD → PrngReg)

/-- The four float arguments as launched, at their array types. -/
abbrev srcArr (c : Dev nD) : FVec Ideal S8x256x512 .f32 := m ((c.tc : Thread nD τ).loc main_arg0)
abbrev tgtArr (c : Dev nD) : FVec Ideal S8x64x512 .f32 := m ((c.tc : Thread nD τ).loc main_arg2)
abbrev wArr (c : Dev nD) : FVec Ideal S1024x512 .f32 := m ((c.tc : Thread nD τ).loc main_arg4)
abbrev biasArr (c : Dev nD) : FVec Ideal S1024 .f32 := m ((c.tc : Thread nD τ).loc main_arg5)

/-- The weight window's array, as the region finds it: the weight transposed (the change of float format is the identity). -/
theorem weightT_apply (c : Dev nD) (k : Fin 512) (v : Fin 1024) :
    (V m c main_v1 : S512x1024.Idx → Ideal .bf16) (ix2 k v) = wArr m c (ix2 v k) := by
  have e : (V m c main_v1 : S512x1024.Idx → Ideal .bf16)
      = truncf (F := Ideal) .bf16 (transpose S512x1024 [1, 0] (wArr m c) transposes_S1024x512_S512x1024_1_0) bitsLt_bf16_f32 := by
    dsimp only [Gen.V, Gen.hostOps0]; after_results <;> rfl
  rw [e]
  show FloatOps.truncf (F := Ideal) .bf16 bitsLt_bf16_f32 (transpose S512x1024 [1, 0] (wArr m c) transposes_S1024x512_S512x1024_1_0 (ix2 k v)) = _
  rw [Ideal.truncf_def, transpose_ix2_apply]

/-- The printed index maps, decided once over the 64 grid points: every input block sits where the output block's
    indices place it, and the output's block indices stay in range. -/
theorem idx_facts : ∀ t : Fin cfg0.N,
      win0_0.index t (0 : Fin 3) = win0_4.index t (0 : Fin 4) ∧ win0_0.index t (1 : Fin 3) = win0_4.index t (1 : Fin 4) ∧ win0_0.index t (2 : Fin 3) = 0
    ∧ win0_1.index t (0 : Fin 3) = win0_4.index t (0 : Fin 4) ∧ win0_1.index t (1 : Fin 3) = 0 ∧ win0_1.index t (2 : Fin 3) = 0
    ∧ win0_2.index t (0 : Fin 2) = 0 ∧ win0_2.index t (1 : Fin 2) = win0_4.index t (3 : Fin 4)
    ∧ win0_3.index t (0 : Fin 1) = win0_4.index t (3 : Fin 4)
    ∧ win0_4.index t (2 : Fin 4) = 0 ∧ win0_4.index t (0 : Fin 4) ≤ 7 ∧ win0_4.index t (1 : Fin 4) ≤ 1 ∧ win0_4.index t (3 : Fin 4) ≤ 3 :=
  (by decide +kernel : ∀ t : Fin grid0.N, _)

/-- Every block of the output array is some point's. -/
theorem idx_onto : ∀ (q0 : Fin 8) (q1 : Fin 2) (q3 : Fin 4), ∃ t : Fin cfg0.N, win0_4.index t = ![q0.val, q1.val, 0, q3.val] :=
  (by decide +kernel : ∀ (q0 : Fin 8) (q1 : Fin 2) (q3 : Fin 4), ∃ t : Fin grid0.N, win0_4.index t = ![q0.val, q1.val, 0, q3.val])

/-- What point `t` writes back is block `t` of the joint network's array of the argument arrays. -/
theorem flushed_eq (c : Dev nD) (t : Fin cfg0.N) :
    (dats m 0 c).flushed 4 t = ((cfg0.win 4).blk t).view.read (Elt Ideal) (Cert.JointSpec.joint (srcArr m c) (tgtArr m c) (wArr m c) (biasArr m c)) := by
  show (cfg0.win 4).cut (grid0.coords t) ((dats m 0 c).after 4 t) = _
  rw [after4]
  unfold outAt outBlk
  rw [actBlk_eq]
  obtain ⟨f00, f01, f02, f10, f11, f12, f20, f21, f30, f42, b0, b1, b3⟩ := idx_facts t
  funext y
  obtain ⟨z, r, u, v, rfl⟩ : ∃ (z : Fin 1) (r : Fin 128) (u : Fin 64) (v : Fin 256), y = ix4 z r u v := ⟨y 0, y 1, y 2, y 3, eq_ix4 y⟩
  obtain rfl : z = 0 := Fin.ext (by omega)
  have hr := r.isLt; have hu := u.isLt; have hv := v.isLt
  show k0_pay2 (F := Ideal) (actOf ((srcMat (ms0 t)).view.read (Elt Ideal) ((hs0 t).unread (iblk m c 0 t))) (iblk m c 1 t)) (iblk m c 2 t) (iblk m c 3 t) (ix4 (0 : Fin 1) r u v)
    = (Cert.JointSpec.joint (srcArr m c) (tgtArr m c) (wArr m c) (biasArr m c)) (((cfg0.win 4).blk t).view.emb (ix4 (0 : Fin 1) r u v))
  rw [pay2_apply]
  unfold Cert.JointSpec.joint
  have hb : iblk m c 3 t (ix1 v) = biasArr m c (ix1 ((((cfg0.win 4).blk t).view.emb (ix4 (0 : Fin 1) r u v)) 3)) := by
    show V m c main_arg5 (((cfg0.win 3).blk t).view.emb (ix1 v)) = _
    rw [V_main_arg5]
    refine congrArg _ (funext fun a => Fin.ext ?_)
    match a with
    | ⟨0, _⟩ => show win0_3.index t (0 : Fin 1) * 256 + 1 * v.val = win0_4.index t (3 : Fin 4) * 256 + 1 * v.val; omega
  rw [hb]
  refine congrArg (fun s => FloatOps.addf s _) (Finset.sum_congr rfl fun k _ => ?_)
  have hk := k.isLt
  have hw : iblk m c 2 t (ix2 k v) = wArr m c (ix2 ((((cfg0.win 4).blk t).view.emb (ix4 (0 : Fin 1) r u v)) 3) k) := by
    show V m c main_v1 (((cfg0.win 2).blk t).view.emb (ix2 k v)) = _
    have e : ((cfg0.win 2).blk t).view.emb (ix2 k v) = (ix2 k ((((cfg0.win 4).blk t).view.emb (ix4 (0 : Fin 1) r u v)) 3) : S512x1024.Idx) := by
      funext a; apply Fin.ext
      match a with
      | ⟨0, _⟩ => show win0_2.index t (0 : Fin 2) * 512 + 1 * k.val = k.val; omega
      | ⟨1, _⟩ => show win0_2.index t (1 : Fin 2) * 256 + 1 * v.val = win0_4.index t (3 : Fin 4) * 256 + 1 * v.val; omega
    rw [e]
    exact weightT_apply m c k _
  have hs : (srcMat (ms0 t)).view.read (Elt Ideal) ((hs0 t).unread (iblk m c 0 t)) (ix2 r k)
      = srcArr m c (ix3 ((((cfg0.win 4).blk t).view.emb (ix4 (0 : Fin 1) r u v)) 0) ((((cfg0.win 4).blk t).view.emb (ix4 (0 : Fin 1) r u v)) 1) k) := by
    rw [srcRows_apply]
    show V m c main_arg0 (((cfg0.win 0).blk t).view.emb (ix3 (0 : Fin 1) r k)) = _
    rw [V_main_arg0]
    refine congrArg _ (funext fun a => Fin.ext ?_)
    match a with
    | ⟨0, _⟩ => show win0_0.index t (0 : Fin 3) * 1 + 1 * 0 = win0_4.index t (0 : Fin 4) * 1 + 1 * 0; omega
    | ⟨1, _⟩ => show win0_0.index t (1 : Fin 3) * 128 + 1 * r.val = win0_4.index t (1 : Fin 4) * 128 + 1 * r.val; omega
    | ⟨2, _⟩ => show win0_0.index t (2 : Fin 3) * 512 + 1 * k.val = k.val; omega
  have ht : iblk m c 1 t (ix3 (0 : Fin 1) u k)
      = tgtArr m c (ix3 ((((cfg0.win 4).blk t).view.emb (ix4 (0 : Fin 1) r u v)) 0) ((((cfg0.win 4).blk t).view.emb (ix4 (0 : Fin 1) r u v)) 2) k) := by
    show V m c main_arg2 (((cfg0.win 1).blk t).view.emb (ix3 (0 : Fin 1) u k)) = _
    rw [V_main_arg2]
    refine congrArg _ (funext fun a => Fin.ext ?_)
    match a with
    | ⟨0, _⟩ => show win0_1.index t (0 : Fin 3) * 1 + 1 * 0 = win0_4.index t (0 : Fin 4) * 1 + 1 * 0; omega
    | ⟨1, _⟩ => show win0_1.index t (1 : Fin 3) * 64 + 1 * u.val = win0_4.index t (2 : Fin 4) * 64 + 1 * u.val; omega
    | ⟨2, _⟩ => show win0_1.index t (2 : Fin 3) * 512 + 1 * k.val = k.val; omega
  rw [hw]
  unfold actOf Cert.JointSpec.act
  show FloatOps.truncf (F := Ideal) .bf16 bitsLt_bf16_f32 (FloatOps.maximumf (F := Ideal) (φ := .f32) (FloatOps.addf (F := Ideal) (φ := .f32) ((srcMat (ms0 t)).view.read (Elt Ideal) ((hs0 t).unread (iblk m c 0 t)) (ix2 r k)) (iblk m c 1 t (ix3 (0 : Fin 1) u k))) (FloatOps.ofBits .f32 0x00000000#32)) * _ = _
  rw [hs, ht, Ideal.truncf_def]

/-- An index of the output array is in point `t`'s block iff each coordinate is in the block's range on its axis. -/
theorem mem_blk (t : Fin cfg0.N) (i : S8x256x64x1024.Idx) :
    i ∈ ((cfg0.win 4).blk t).view.set ↔ ∀ a : Fin 4, win0_4.index t a * S1x128x64x256.size a ≤ (i a).val ∧ (i a).val < win0_4.index t a * S1x128x64x256.size a + S1x128x64x256.size a := by
  show i ∈ ((View.whole main_v2).slice (win0_4.rect t)).set ↔ _
  rw [View.set_slice_whole, Rect.mem_set_unit]
  exact Iff.rfl

/-- The output's blocks tile its array: index (b, s, u, f) lies in the block of batch entry b, source tile s / 128, feature tile f / 256. -/
theorem covered (i : S8x256x64x1024.Idx) : ∃ t : Fin cfg0.N, (cfg0.win 4).flush t = true ∧ i ∈ ((cfg0.win 4).blk t).view.set := by
  have hi0 : (i 0).val < 8 := (i 0).isLt
  have hi1 : (i 1).val < 256 := (i 1).isLt
  have hi2 : (i 2).val < 64 := (i 2).isLt
  have hi3 : (i 3).val < 1024 := (i 3).isLt
  obtain ⟨t, ht⟩ := idx_onto ⟨(i 0).val, hi0⟩ ⟨(i 1).val / 128, by omega⟩ ⟨(i 3).val / 256, by omega⟩
  have q0 : win0_4.index t (0 : Fin 4) = (i 0).val := congrFun ht 0
  have q1 : win0_4.index t (1 : Fin 4) = (i 1).val / 128 := congrFun ht 1
  have q2 : win0_4.index t (2 : Fin 4) = 0 := congrFun ht 2
  have q3 : win0_4.index t (3 : Fin 4) = (i 3).val / 256 := congrFun ht 3
  refine ⟨t, flush0_4 t, (mem_blk t i).mpr fun a => ?_⟩
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 128 ≤ (i 1).val ∧ (i 1).val < win0_4.index t (1 : Fin 4) * 128 + 128; omega
  | ⟨2, _⟩ => show win0_4.index t (2 : Fin 4) * 64 ≤ (i 2).val ∧ (i 2).val < win0_4.index t (2 : Fin 4) * 64 + 64; omega
  | ⟨3, _⟩ => show win0_4.index t (3 : Fin 4) * 256 ≤ (i 3).val ∧ (i 3).val < win0_4.index t (3 : Fin 4) * 256 + 256; omega

/-- The output array after the run is the joint network's array of the argument arrays. -/
theorem final (c : Dev nD) : (dats m 0 c).arrAt 4 cfg0.N = (Cert.JointSpec.joint (srcArr m c) (tgtArr m c) (wArr m c) (biasArr m c)) :=
  (dats m 0 c).arrAt_eq_of_cover 4 _ (fun t _ => flushed_eq m c t) covered

/-- The run of the idealized kernel, read: the result array at the joint network's function of the arguments, the
    six arguments unchanged. -/
theorem run : θ_run defs (onTc (τ := τ) (main (F := Ideal))) ⟨m, fun _ => 0, ρ⟩ fun r => ∀ c : Dev nD,
      r.2.mem ((c.tc : Thread nD τ).loc main_v2) = (Cert.JointSpec.joint (srcArr m c) (tgtArr m c) (wArr m c) (biasArr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 4).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 3).trans (((dats m 0 c).arrAt_in 3 rfl _).trans ((A_eq m c 3).trans (V_main_arg5 m c)))⟩)
    (run_main m ρ)

end Flush

end Cert.KernelIdeal.JointValue

end
-- ==== Proof.RefValue.lean ====
/-
  The reference computes the joint network's function.

  The reference spreads the source encodings along a new target axis and the target encodings along a new source
  axis, adds them, clamps at zero, contracts the feature axis against the weight's rows and adds the bias spread
  over the three leading axes. Read at an output index (b, t, u, v) — each layout operation at the index it reads,
  the contraction as a sum over the 512 features — this is the specification's term, once the composed index
  functions are identified with the coordinates they pick.
-/
import proofs.«110004_j20873541058896_2_alg».proof.Proof.Gen.ReferenceIdeal.Read
import proofs.«110004_j20873541058896_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.JointSpec
open scoped BigOperators

/-- The reference's result, index by index, is the joint network's function of the four float arguments. -/
theorem ref_eq (x0 : FVec Ideal S8x256x512 .f32) (x2 : FVec Ideal S8x64x512 .f32) (x4 : FVec Ideal S1024x512 .f32) (x5 : FVec Ideal S1024 .f32) :
    val_main_v9 (F := Ideal) x0 x2 x4 x5 = joint x0 x2 x4 x5 := by
  funext i
  rw [val_main_v9_apply, val_main_v6_apply, val_main_v8_apply, val_main_v7_apply]
  unfold joint
  have eb : idx_main_v7 (idx_main_v8 i) = ix1 (i 3) := funext fun a => Fin.ext (by match a with | ⟨0, _⟩ => rfl)
  rw [eb]
  refine congrArg (fun s => FloatOps.addf s (x5 (ix1 (i 3)))) (Finset.sum_congr rfl fun k _ => ?_)
  rw [val_main_v5_apply, val_main_v4_apply, val_main_v2_apply, val_main_v0_apply, val_main_v3_apply, val_main_v1_apply,
    val_main_call0_v0_apply, val_main_call0_cst_apply]
  have e0 : idx_main_v0 (idx_main_v2 (lidx_main_v6 i k)) = ix3 (i 0) (i 1) k :=
    funext fun a => Fin.ext (by match a with | ⟨0, _⟩ => rfl | ⟨1, _⟩ => rfl | ⟨2, _⟩ => rfl)
  have e2 : idx_main_v1 (idx_main_v3 (lidx_main_v6 i k)) = ix3 (i 0) (i 2) k :=
    funext fun a => Fin.ext (by match a with | ⟨0, _⟩ => rfl | ⟨1, _⟩ => rfl | ⟨2, _⟩ => rfl)
  have e4 : ridx_main_v6 i k = ix2 (i 3) k :=
    funext fun a => Fin.ext (by match a with | ⟨0, _⟩ => rfl | ⟨1, _⟩ => rfl)
  rw [e0, e2, e4]
  rfl

end Cert.ReferenceIdeal.RefValue

end
-- ==== Proof.lean ====
/-
  The certificate: a joint network's kernel against its reference.

  Both programs compute, for batch entry b, source step t, target step u and output feature v,
      out[b, t, u, v] = (∑ₖ max(src[b, t, k] + tgt[b, u, k], 0) · W[v, k]) + bias[v]
  over the extended reals (Proof/Spec.lean), and both pass the two integer length arrays through unchanged. The
  kernel tiles the source steps by 128 and the features by 256; at each grid point it builds the activation of its
  128 source steps against all 64 target steps in a scratch, sixteen source steps per trip of a loop, and multiplies
  the scratch, flattened to 8192 rows, by the tile of the transposed weight. No law of arithmetic beyond reading
  both sides at an index is needed: the two sums have the same terms in the same order, so finiteness of the inputs
  is never used. The three frames: the two kernels' from the body's run under the pipeline's launch theorem
  (Proof/BitsFrame.lean, Proof/IdealFrame.lean), the reference's from its run.
-/
import proofs.«110004_j20873541058896_2_alg».proof.Defs
import proofs.«110004_j20873541058896_2_alg».proof.Proof.Gen.Kernel
import proofs.«110004_j20873541058896_2_alg».proof.Proof.Gen.KernelIdeal
import proofs.«110004_j20873541058896_2_alg».proof.Proof.Gen.ReferenceIdeal
import proofs.«110004_j20873541058896_2_alg».proof.Proof.Gen.Pre_finite_inputs
import proofs.«110004_j20873541058896_2_alg».proof.Proof.BitsFrame
import proofs.«110004_j20873541058896_2_alg».proof.Proof.OutValue
import proofs.«110004_j20873541058896_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments unchanged. -/
theorem frame_kernel : Cert.frame_Kernel := fun m ρ _ => Cert.Kernel.Body.frame m ρ

/-- So does its idealization. -/
theorem frame_kernelIdeal : Cert.frame_KernelIdeal := fun m ρ _ => Cert.KernelIdeal.Body.frame m ρ

/-- The reference is host operations only: its run, with the result dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- At the ideal reading the kernel's result array and the reference's are the joint network's function of arguments
    that agree, and the two length arrays come back as they went in. -/
theorem algebraic : Cert.algebraic_KernelIdeal_ReferenceIdeal := by
  intro m ρ m' ρ' _ hagree
  refine ⟨_, _, _, (θ_run Cert.KernelIdeal.defs _ _).mono (fun r h c => ⟨(h c).1, (h c).2.2.1, (h c).2.2.2.2.1, (h c).2⟩)
    (Cert.KernelIdeal.JointValue.run m ρ), ?_⟩
  refine (θ_run Cert.ReferenceIdeal.defs _ _).mono (fun r h c => ⟨(h c).1.trans ?_, (h c).2.1.trans (hagree c).2.1,
    (h c).2.2.1.trans (hagree c).2.2.2.1, (h c).2.2.2⟩) (Cert.ReferenceIdeal.Value.run (F := Ideal) m' ρ')
  rw [Cert.ReferenceIdeal.Read.val_main_v9_eq, Cert.ReferenceIdeal.RefValue.ref_eq, (hagree c).1, (hagree c).2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
